-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x500 : Shape := ⟨2, ![1024, 500]⟩
abbrev S500 : Shape := ⟨1, ![500]⟩
abbrev S1000x2 : Shape := ⟨2, ![1000, 2]⟩
abbrev S2 : Shape := ⟨1, ![2]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x500 : S_.BroadcastsInDim S1024x500 (![] : Fin 0 → Fin S1024x500.rank)
  reducesTo_S1024x500_S_d0_1 : S1024x500.ReducesTo [0, 1] S_
  bcast_S_S500 : S_.BroadcastsInDim S500 (![] : Fin 0 → Fin S500.rank)
  reducesTo_S500_S_d0 : S500.ReducesTo [0] S_
  bcast_S_S1000x2 : S_.BroadcastsInDim S1000x2 (![] : Fin 0 → Fin S1000x2.rank)
  reducesTo_S1000x2_S_d0_1 : S1000x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S500 .f32) (main_arg5 : FVec F S1000x2 .f32) (main_arg6 : FVec F S2 .f32) (main_v13 : IVec S_ 1) (main_v16 : IVec S1024x500 1) : IVec S_ 1 :=
  let main_c_5 : IVec S_ 1 := constantI S_ 1 1#1
  let main_v17 : IVec S_ 1 := (fun x v => Host.reduce IntOp.andi x v reducesTo_S1024x500_S_d0_1 h_S_) main_v16 main_c_5
  let main_v18 : IVec S_ 1 := andi main_v13 main_v17
  let main_v19 : FVec F S500 .f32 := Host.absf main_arg4
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S1000x2 .f32 := Host.absf main_arg5
  let main_cst_8 : FVec F S_ .f32 := constant S_ .f32 0x7F800000#32
  let main_v25 : FVec F S1000x2 .f32 := broadcastInDim S1000x2 ![] bcast_S_S1000x2 main_cst_8
  let main_v26 : IVec S1000x2 1 := cmpf .olt main_v24 main_v25
  let main_c_9 : IVec S_ 1 := constantI S_ 1 1#1
  let main_v27 : IVec S_ 1 := (fun x v => Host.reduce IntOp.andi x v reducesTo_S1000x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S16x1024x1024 .f32) (main_arg1 : FVec F S1024x500 .f32) (main_arg2 : FVec F S500 .f32) (main_arg3 : FVec F S1024x500 .f32) (main_arg4 : FVec F S500 .f32) (main_arg5 : FVec F S1000x2 .f32) (main_arg6 : FVec F S2 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x500 .f32 := Host.absf main_arg1
  let main_cst_0 : FVec F S_ .f32 := constant S_ .f32 0x7F800000#32
  let main_v5 : FVec F S1024x500 .f32 := broadcastInDim S1024x500 ![] bcast_S_S1024x500 main_cst_0
  let main_v6 : IVec S1024x500 1 := cmpf .olt main_v4 main_v5
  let main_c_1 : IVec S_ 1 := constantI S_ 1 1#1
  let main_v7 : IVec S_ 1 := (fun x v => Host.reduce IntOp.andi x v reducesTo_S1024x500_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S1024x500 .f32 := Host.absf main_arg3
  let main_cst_4 : FVec F S_ .f32 := constant S_ .f32 0x7F800000#32
  let main_v15 : FVec F S1024x500 .f32 := broadcastInDim S1024x500 ![] bcast_S_S1024x500 main_cst_4
  let main_v16 : IVec S1024x500 1 := cmpf .olt main_v14 main_v15
  fn_part1 (F := F) main_arg4 main_arg5 main_arg6 main_v13 main_v16
-- ==== Kernel.lean ====
abbrev S16x1024x1024 : Shape := ⟨3, ![16, 1024, 1024]⟩
abbrev S1024x500 : Shape := ⟨2, ![1024, 500]⟩
abbrev S500 : Shape := ⟨1, ![500]⟩
abbrev S1000x2 : Shape := ⟨2, ![1000, 2]⟩
abbrev S2 : Shape := ⟨1, ![2]⟩
abbrev S500x2 : Shape := ⟨2, ![500, 2]⟩
abbrev S1x500 : Shape := ⟨2, ![1, 500]⟩
abbrev S1x2 : Shape := ⟨2, ![1, 2]⟩
abbrev S16x1024x2 : Shape := ⟨3, ![16, 1024, 2]⟩
abbrev S1x1024x1024 : Shape := ⟨3, ![1, 1024, 1024]⟩
abbrev S1x1024x2 : Shape := ⟨3, ![1, 1024, 2]⟩
abbrev S1024x1024 : Shape := ⟨2, ![1024, 1024]⟩
abbrev S1024x2 : Shape := ⟨2, ![1024, 2]⟩
abbrev S16x1024x1024x2 : Shape := ⟨4, ![16, 1024, 1024, 2]⟩
abbrev S1x32x2 : Shape := ⟨3, ![1, 32, 2]⟩
abbrev S1x32x1024x2 : Shape := ⟨4, ![1, 32, 1024, 2]⟩
abbrev S1x32x1x2 : Shape := ⟨4, ![1, 32, 1, 2]⟩
abbrev S1x1x1024x2 : Shape := ⟨4, ![1, 1, 1024, 2]⟩
abbrev S1x1x1x2 : Shape := ⟨4, ![1, 1, 1, 2]⟩

abbrev nBuf : Space → Nat
  | .hbm => 19
  | .vmem => 19
  | .smem => 0
  | _ => 0

abbrev bufTy : (tb : Table) → Fin (tcTables nBuf tb) → BufTy
  | .hbm, ⟨0, _⟩ => ⟨S16x1024x1024, .f32⟩
  | .hbm, ⟨1, _⟩ => ⟨S1024x500, .f32⟩
  | .hbm, ⟨2, _⟩ => ⟨S500, .f32⟩
  | .hbm, ⟨3, _⟩ => ⟨S1024x500, .f32⟩
  | .hbm, ⟨4, _⟩ => ⟨S500, .f32⟩
  | .hbm, ⟨5, _⟩ => ⟨S1000x2, .f32⟩
  | .hbm, ⟨6, _⟩ => ⟨S2, .f32⟩
  | .hbm, ⟨7, _⟩ => ⟨S500x2, .f32⟩
  | .hbm, ⟨8, _⟩ => ⟨S500x2, .f32⟩
  | .hbm, ⟨9, _⟩ => ⟨S1024x500, .bf16⟩
  | .hbm, ⟨10, _⟩ => ⟨S1024x500, .bf16⟩
  | .hbm, ⟨11, _⟩ => ⟨S500x2, .bf16⟩
  | .hbm, ⟨12, _⟩ => ⟨S500x2, .bf16⟩
  | .hbm, ⟨13, _⟩ => ⟨S1x500, .f32⟩
  | .hbm, ⟨14, _⟩ => ⟨S1x500, .f32⟩
  | .hbm, ⟨15, _⟩ => ⟨S1x2, .f32⟩
  | .hbm, ⟨16, _⟩ => ⟨S16x1024x2, .f32⟩
  | .hbm, ⟨17, _⟩ => ⟨S16x1024x2, .f32⟩
  | .hbm, ⟨18, _⟩ => ⟨S16x1024x1024x2, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x500, .bf16⟩
  | .local _ .vmem, ⟨3, _⟩ => ⟨S1x500, .f32⟩
  | .local _ .vmem, ⟨4, _⟩ => ⟨S1024x500, .bf16⟩
  | .local _ .vmem, ⟨5, _⟩ => ⟨S1x500, .f32⟩
  | .local _ .vmem, ⟨6, _⟩ => ⟨S500x2, .bf16⟩
  | .local _ .vmem, ⟨7, _⟩ => ⟨S500x2, .bf16⟩
  | .local _ .vmem, ⟨8, _⟩ => ⟨S1x1024x2, .f32⟩
  | .local _ .vmem, ⟨9, _⟩ => ⟨S1x1024x2, .f32⟩
  | .local _ .vmem, ⟨10, _⟩ => ⟨S1x1024x2, .f32⟩
  | .local _ .vmem, ⟨11, _⟩ => ⟨S1x1024x2, .f32⟩
  | .local _ .vmem, ⟨12, _⟩ => ⟨S1x32x2, .f32⟩
  | .local _ .vmem, ⟨13, _⟩ => ⟨S1x32x2, .f32⟩
  | .local _ .vmem, ⟨14, _⟩ => ⟨S1x1024x2, .f32⟩
  | .local _ .vmem, ⟨15, _⟩ => ⟨S1x1024x2, .f32⟩
  | .local _ .vmem, ⟨16, _⟩ => ⟨S1x2, .f32⟩
  | .local _ .vmem, ⟨17, _⟩ => ⟨S1x32x1024x2, .f32⟩
  | .local _ .vmem, ⟨18, _⟩ => ⟨S1x32x1024x2, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x32x1024x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S1000x2_S500x2_0_0 : S1000x2.Slices ![0, 0] S500x2
  slices_S1000x2_S500x2_500_0 : S1000x2.Slices ![500, 0] S500x2
  bitsLt_bf16_f32 : FTy.bits .bf16 < FTy.bits .f32
  shapeCasts_S500_S1x500 : S500.ShapeCasts S1x500
  shapeCasts_S2_S1x2 : S2.ShapeCasts S1x2
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x500_S1024x500_0_0 : ∀ a, (![0, 0] : Fin 2 → Nat) a + S1024x500.size a ≤ S1024x500.size a
  h_S1024x500 : 0 < S1024x500.numel
  shapeCasts_S1024x500_S1024x500 : S1024x500.ShapeCasts S1024x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S1024x500 : S1x500.Broadcasts S1024x500
  inb_S500x2_S500x2_0_0 : ∀ a, (![0, 0] : Fin 2 → Nat) a + S500x2.size a ≤ S500x2.size a
  h_S500x2 : 0 < S500x2.numel
  shapeCasts_S500x2_S500x2 : S500x2.ShapeCasts S500x2
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  inb_S1x32x2_S1x32x2_0_0_0 : ∀ a, (![0, 0, 0] : Fin 3 → Nat) a + S1x32x2.size a ≤ S1x32x2.size a
  h_S1x32x2 : 0 < S1x32x2.numel
  shapeCasts_S1x32x2_S1x32x2 : S1x32x2.ShapeCasts S1x32x2
  shapeCasts_S1x1024x2_S1x1024x2 : S1x1024x2.ShapeCasts S1x1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  shapeCasts_S1x32x2_S1x32x1x2 : S1x32x2.ShapeCasts S1x32x1x2
  shapeCasts_S1x1024x2_S1x1x1024x2 : S1x1024x2.ShapeCasts S1x1x1024x2
  broadcasts_S1x32x1x2_S1x32x1024x2 : S1x32x1x2.Broadcasts S1x32x1024x2
  broadcasts_S1x1x1024x2_S1x32x1024x2 : S1x1x1024x2.Broadcasts S1x32x1024x2
  shapeCasts_S1x2_S1x1x1x2 : S1x2.ShapeCasts S1x1x1x2
  broadcasts_S1x1x1x2_S1x32x1024x2 : S1x1x1x2.Broadcasts S1x32x1024x2
  inb_S1x32x1024x2_S1x32x1024x2_0_0_0_0 : ∀ a, (![0, 0, 0, 0] : Fin 4 → Nat) a + S1x32x1024x2.size a ≤ S1x32x1024x2.size a
  h_S1x32x1024x2 : 0 < S1x32x1024x2.numel
  dot_S1024x1024_S1024x500_S1024x500_1_0_0_1_n_n_wf : DotDims.WF S1024x1024 S1024x500 S1024x500 [1] [0] [0] [1] [] []
  dot_S1024x500_S500x2_S1024x2_1_0_0_1_n_n_wf : DotDims.WF S1024x500 S500x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x500.size a ≤ S1024x500.size a
  hwx0_1 : ∀ i : grid0.Coords, EltTy.bits .bf16 = 32 ∨ (Rect.block (s := S1024x500) S1024x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x500.size a ≤ S1024x500.size a
  hwx0_3 : ∀ i : grid0.Coords, EltTy.bits .bf16 = 32 ∨ (Rect.block (s := S1024x500) S1024x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x2.size a ≤ S500x2.size a
  hwx0_5 : ∀ i : grid0.Coords, EltTy.bits .bf16 = 32 ∨ (Rect.block (s := S500x2) S500x2.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x2.size a ≤ S500x2.size a
  hwx0_6 : ∀ i : grid0.Coords, EltTy.bits .bf16 = 32 ∨ (Rect.block (s := S500x2) S500x2.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x2.size a ≤ S16x1024x2.size a
  hwx0_7 : ∀ i : grid0.Coords, EltTy.bits .f32 = 32 ∨ (Rect.block (s := S16x1024x2) S1x1024x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x2.size a ≤ S16x1024x2.size a
  hwx0_8 : ∀ i : grid0.Coords, EltTy.bits .f32 = 32 ∨ (Rect.block (s := S16x1024x2) S1x1024x2.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x2.size a ≤ S16x1024x2.size a
  hwx1_0 : ∀ i : grid1.Coords, EltTy.bits .f32 = 32 ∨ (Rect.block (s := S16x1024x2) S1x32x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x2.size a ≤ S16x1024x2.size a
  hwx1_1 : ∀ i : grid1.Coords, EltTy.bits .f32 = 32 ∨ (Rect.block (s := S16x1024x2) S1x1024x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x1024x2.size a ≤ S16x1024x1024x2.size a
  hwx1_3 : ∀ i : grid1.Coords, EltTy.bits .f32 = 32 ∨ (Rect.block (s := S16x1024x1024x2) S1x32x1024x2.size (cc1_transform_3 i) (hinb1_3 i)).WholeWords (EltTy.packing .f32)

variable [Facts₀]

def dot_S1024x1024_S1024x500_S1024x500_1_0_0_1_n_n : DotDims S1024x1024 S1024x500 S1024x500 where
  lhsContracting := [1]
  rhsContracting := [0]
  lhsNonContracting := [0]
  rhsNonContracting := [1]
  lhsBatch := []
  rhsBatch := []
  wf := dot_S1024x1024_S1024x500_S1024x500_1_0_0_1_n_n_wf
def dot_S1024x500_S500x2_S1024x2_1_0_0_1_n_n : DotDims S1024x500 S500x2 S1024x2 where
  lhsContracting := [1]
  rhsContracting := [0]
  lhsNonContracting := [0]
  rhsNonContracting := [1]
  lhsBatch := []
  rhsBatch := []
  wf := dot_S1024x500_S500x2_S1024x2_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S500x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S500x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x1024x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x1024x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9_0) S1x32x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x1024x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x32x1024x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x1024x1024 : Shape := ⟨3, ![16, 1024, 1024]⟩
abbrev S1024x500 : Shape := ⟨2, ![1024, 500]⟩
abbrev S500 : Shape := ⟨1, ![500]⟩
abbrev S1000x2 : Shape := ⟨2, ![1000, 2]⟩
abbrev S2 : Shape := ⟨1, ![2]⟩
abbrev S16x1024x500 : Shape := ⟨3, ![16, 1024, 500]⟩
abbrev S1x1x500 : Shape := ⟨3, ![1, 1, 500]⟩
abbrev S_ : Shape := ⟨0, ![]⟩
abbrev S500x2 : Shape := ⟨2, ![500, 2]⟩
abbrev S16x1024x2 : Shape := ⟨3, ![16, 1024, 2]⟩
abbrev S16x1024x1x2 : Shape := ⟨4, ![16, 1024, 1, 2]⟩
abbrev S16x1x1024x2 : Shape := ⟨4, ![16, 1, 1024, 2]⟩
abbrev S16x1024x1024x2 : Shape := ⟨4, ![16, 1024, 1024, 2]⟩
abbrev S1x1x1x2 : Shape := ⟨4, ![1, 1, 1, 2]⟩

abbrev nBuf : Space → Nat
  | .hbm => 43
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S1024x500, .f32⟩
  | .hbm, ⟨2, _⟩ => ⟨S500, .f32⟩
  | .hbm, ⟨3, _⟩ => ⟨S1024x500, .f32⟩
  | .hbm, ⟨4, _⟩ => ⟨S500, .f32⟩
  | .hbm, ⟨5, _⟩ => ⟨S1000x2, .f32⟩
  | .hbm, ⟨6, _⟩ => ⟨S2, .f32⟩
  | .hbm, ⟨7, _⟩ => ⟨S16x1024x500, .f32⟩
  | .hbm, ⟨8, _⟩ => ⟨S1x1x500, .f32⟩
  | .hbm, ⟨9, _⟩ => ⟨S16x1024x500, .f32⟩
  | .hbm, ⟨10, _⟩ => ⟨S16x1024x500, .f32⟩
  | .hbm, ⟨11, _⟩ => ⟨S_, .f32⟩
  | .hbm, ⟨12, _⟩ => ⟨S_, .f32⟩
  | .hbm, ⟨13, _⟩ => ⟨S16x1024x500, .f32⟩
  | .hbm, ⟨14, _⟩ => ⟨S16x1024x500, .i1⟩
  | .hbm, ⟨15, _⟩ => ⟨S_, .f32⟩
  | .hbm, ⟨16, _⟩ => ⟨S16x1024x500, .f32⟩
  | .hbm, ⟨17, _⟩ => ⟨S16x1024x500, .f32⟩
  | .hbm, ⟨18, _⟩ => ⟨S16x1024x500, .f32⟩
  | .hbm, ⟨19, _⟩ => ⟨S16x1024x500, .f32⟩
  | .hbm, ⟨20, _⟩ => ⟨S1x1x500, .f32⟩
  | .hbm, ⟨21, _⟩ => ⟨S16x1024x500, .f32⟩
  | .hbm, ⟨22, _⟩ => ⟨S16x1024x500, .f32⟩
  | .hbm, ⟨23, _⟩ => ⟨S_, .f32⟩
  | .hbm, ⟨24, _⟩ => ⟨S_, .f32⟩
  | .hbm, ⟨25, _⟩ => ⟨S16x1024x500, .f32⟩
  | .hbm, ⟨26, _⟩ => ⟨S16x1024x500, .i1⟩
  | .hbm, ⟨27, _⟩ => ⟨S_, .f32⟩
  | .hbm, ⟨28, _⟩ => ⟨S16x1024x500, .f32⟩
  | .hbm, ⟨29, _⟩ => ⟨S16x1024x500, .f32⟩
  | .hbm, ⟨30, _⟩ => ⟨S16x1024x500, .f32⟩
  | .hbm, ⟨31, _⟩ => ⟨S500x2, .f32⟩
  | .hbm, ⟨32, _⟩ => ⟨S16x1024x2, .f32⟩
  | .hbm, ⟨33, _⟩ => ⟨S500x2, .f32⟩
  | .hbm, ⟨34, _⟩ => ⟨S16x1024x2, .f32⟩
  | .hbm, ⟨35, _⟩ => ⟨S16x1024x1x2, .f32⟩
  | .hbm, ⟨36, _⟩ => ⟨S16x1x1024x2, .f32⟩
  | .hbm, ⟨37, _⟩ => ⟨S16x1024x1024x2, .f32⟩
  | .hbm, ⟨38, _⟩ => ⟨S16x1024x1024x2, .f32⟩
  | .hbm, ⟨39, _⟩ => ⟨S16x1024x1024x2, .f32⟩
  | .hbm, ⟨40, _⟩ => ⟨S1x1x1x2, .f32⟩
  | .hbm, ⟨41, _⟩ => ⟨S16x1024x1024x2, .f32⟩
  | .hbm, ⟨42, _⟩ => ⟨S16x1024x1024x2, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S500_S1x1x500_2 : S500.BroadcastsInDim S1x1x500 (![2] : Fin 1 → Fin S1x1x500.rank)
  bcast_S1x1x500_S16x1024x500_0_1_2 : S1x1x500.BroadcastsInDim S16x1024x500 (![0, 1, 2] : Fin 3 → Fin S16x1024x500.rank)
  bcast_S_S16x1024x500 : S_.BroadcastsInDim S16x1024x500 (![] : Fin 0 → Fin S16x1024x500.rank)
  slices_S1000x2_S500x2_0_0 : S1000x2.Slices ![0, 0] S500x2
  slices_S1000x2_S500x2_500_0 : S1000x2.Slices ![500, 0] S500x2
  bcast_S16x1024x2_S16x1024x1x2_0_1_3 : S16x1024x2.BroadcastsInDim S16x1024x1x2 (![0, 1, 3] : Fin 3 → Fin S16x1024x1x2.rank)
  bcast_S16x1024x2_S16x1x1024x2_0_2_3 : S16x1024x2.BroadcastsInDim S16x1x1024x2 (![0, 2, 3] : Fin 3 → Fin S16x1x1024x2.rank)
  bcast_S16x1024x1x2_S16x1024x1024x2_0_1_2_3 : S16x1024x1x2.BroadcastsInDim S16x1024x1024x2 (![0, 1, 2, 3] : Fin 4 → Fin S16x1024x1024x2.rank)
  bcast_S16x1x1024x2_S16x1024x1024x2_0_1_2_3 : S16x1x1024x2.BroadcastsInDim S16x1024x1024x2 (![0, 1, 2, 3] : Fin 4 → Fin S16x1024x1024x2.rank)
  bcast_S2_S1x1x1x2_3 : S2.BroadcastsInDim S1x1x1x2 (![3] : Fin 1 → Fin S1x1x1x2.rank)
  bcast_S1x1x1x2_S16x1024x1024x2_0_1_2_3 : S1x1x1x2.BroadcastsInDim S16x1024x1024x2 (![0, 1, 2, 3] : Fin 4 → Fin S16x1024x1024x2.rank)
  dot_S16x1024x1024_S1024x500_S16x1024x500_2_0_01_1_n_n_wf : DotDims.WF S16x1024x1024 S1024x500 S16x1024x500 [2] [0] [0, 1] [1] [] []
  dot_S16x1024x500_S500x2_S16x1024x2_2_0_01_1_n_n_wf : DotDims.WF S16x1024x500 S500x2 S16x1024x2 [2] [0] [0, 1] [1] [] []

variable [Facts₀]

def dot_S16x1024x1024_S1024x500_S16x1024x500_2_0_01_1_n_n : DotDims S16x1024x1024 S1024x500 S16x1024x500 where
  lhsContracting := [2]
  rhsContracting := [0]
  lhsNonContracting := [0, 1]
  rhsNonContracting := [1]
  lhsBatch := []
  rhsBatch := []
  wf := dot_S16x1024x1024_S1024x500_S16x1024x500_2_0_01_1_n_n_wf
def dot_S16x1024x500_S500x2_S16x1024x2_2_0_01_1_n_n : DotDims S16x1024x500 S500x2 S16x1024x2 where
  lhsContracting := [2]
  rhsContracting := [0]
  lhsNonContracting := [0, 1]
  rhsNonContracting := [1]
  lhsBatch := []
  rhsBatch := []
  wf := dot_S16x1024x500_S500x2_S16x1024x2_2_0_01_1_n_n_wf

class Facts : Prop extends Facts₀ where

variable [Facts]
-- ==== Proof.Spec.lean ====
/-
  The function both programs compute, entry by entry, on the extended reals.

  Two branches share one hidden-state tensor X [16, 1024, 1024].  A branch applies an affine map to each row of X
  (weights W [1024, 500], bias b [500]), then LeakyReLU, and projects the 500 hidden units to 2 scores with 500 rows of
  the classifier matrix Wc [1000, 2]: rows 0..499 for the first ("dependent") branch, rows 500..999 for the second
  ("head") branch.  The result pairs every dependent position p with every head position q of the same batch member:
      out (n, p, q, k) = (dep (n, p, k) + head (n, q, k)) + bc k.
  Nothing here needs a finite input: only sums and products are re-indexed, never redistributed.
-/
import Idealize.ShloMosaic.PureOps.Ideal
import Idealize.ShloMosaic.Lib.ValueIdx

noncomputable section

namespace Cert.Biaffine

open Idealize.ShloMosaic Idealize.ShloMosaic.ValueIdx

/-- LeakyReLU: `x` where `x ≥ 0`, else the slope times `x`; the slope is the f32 word 0x3C23D70A both programs carry,
    and zero the word 0x00000000. -/
def leaky (x : EReal) : EReal :=
  Scalar.select (Ideal.cmp .oge x (Ideal.ofBits .f32 0x00000000#32)) x (Ideal.ofBits .f32 0x3C23D70A#32 * x)

/-- One score of one branch from the operands as a kernel stages them: a row `x` of the hidden state against the
    weights W [1024, 500], the bias as a row [1, 500], and the branch's 500 classifier rows Wc [500, 2]. -/
def scoreOf (x : Fin 1024 → EReal) (W : (⟨2, ![1024, 500]⟩ : Shape).Idx → EReal)
    (b : (⟨2, ![1, 500]⟩ : Shape).Idx → EReal) (Wc : (⟨2, ![500, 2]⟩ : Shape).Idx → EReal) (k : Fin 2) : EReal :=
  ∑ u : Fin 500, leaky ((∑ d : Fin 1024, x d * W (ix2 d u)) + b (ix2 (0 : Fin 1) u)) * Wc (ix2 u k)

/-- A branch's score array [16, 1024, 2] from the staged operands. -/
def scores (X : (⟨3, ![16, 1024, 1024]⟩ : Shape).Idx → EReal) (W : (⟨2, ![1024, 500]⟩ : Shape).Idx → EReal)
    (b : (⟨2, ![1, 500]⟩ : Shape).Idx → EReal) (Wc : (⟨2, ![500, 2]⟩ : Shape).Idx → EReal) :
    (⟨3, ![16, 1024, 2]⟩ : Shape).Idx → EReal :=
  fun i => scoreOf (fun d => X (ix3 (i 0) (i 1) d)) W b Wc (i 2)

/-- The pairwise sum [16, 1024, 1024, 2] of two score arrays and the class bias as a row [1, 2]. -/
def pairAdd (D H : (⟨3, ![16, 1024, 2]⟩ : Shape).Idx → EReal) (B : (⟨2, ![1, 2]⟩ : Shape).Idx → EReal) :
    (⟨4, ![16, 1024, 1024, 2]⟩ : Shape).Idx → EReal :=
  fun i => (D (ix3 (i 0) (i 1) (i 3)) + H (ix3 (i 0) (i 2) (i 3))) + B (ix2 (0 : Fin 1) (i 3))

/-- The bias vector [500] as the row [1, 500] a kernel stages. -/
def rowOf {n : ℕ} (b : (⟨1, ![n]⟩ : Shape).Idx → EReal) : (⟨2, ![1, n]⟩ : Shape).Idx → EReal := fun i => b (ix1 (i 1))

/-- Rows `off .. off + 499` of the classifier matrix [1000, 2]. -/
def rowsFrom (off : ℕ) (hoff : off + 500 ≤ 1000) (Wc : (⟨2, ![1000, 2]⟩ : Shape).Idx → EReal) :
    (⟨2, ![500, 2]⟩ : Shape).Idx → EReal :=
  fun i => Wc (ix2 (⟨off + (i 0).val, by have := idx2_lt0 i; omega⟩ : Fin 1000) (i 1))

/-- The whole result as a function of the seven arguments. -/
def result (X : (⟨3, ![16, 1024, 1024]⟩ : Shape).Idx → EReal)
    (Wd : (⟨2, ![1024, 500]⟩ : Shape).Idx → EReal) (bd : (⟨1, ![500]⟩ : Shape).Idx → EReal)
    (Wh : (⟨2, ![1024, 500]⟩ : Shape).Idx → EReal) (bh : (⟨1, ![500]⟩ : Shape).Idx → EReal)
    (Wc : (⟨2, ![1000, 2]⟩ : Shape).Idx → EReal) (bc : (⟨1, ![2]⟩ : Shape).Idx → EReal) :
    (⟨4, ![16, 1024, 1024, 2]⟩ : Shape).Idx → EReal :=
  pairAdd (scores X Wd (rowOf bd) (rowsFrom 0 (by omega) Wc)) (scores X Wh (rowOf bh) (rowsFrom 500 (by omega) Wc)) (rowOf bc)

end Cert.Biaffine

end
-- ==== Proof.KernelRun.lean ====
/-
  The idealized kernel's run with its result named.

  @main is a stretch of host operations (slices of the classifier matrix, changes of float format, reshapes of the
  bias vectors) followed by two pipelined regions.  Every weakly fair execution terminates, and at the end the result
  buffer holds what the second region's write-backs leave of it, read through the fold of buffer contents over the
  three segments (the contents after the host stretch, after the first region, after the second region), while the
  seven argument buffers are as launched.
-/
import proofs.«120439_j13692355739775_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last segment
    boundary's contents of it, and the arguments end as launched. -/
theorem run_out : θ_run defs (onTc (τ := τ) (main (F := F))) ⟨m, fun _ => 0, ρ⟩ (fun r => ∀ c : Dev nD,
      r.2.mem ((c.tc : Thread nD τ).loc main_v10) = W3 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.RunValue

end
-- ==== Proof.HostReads.lean ====
/-
  What the first region finds in its operand buffers.

  Before the first region @main cuts the classifier matrix [1000, 2] into its upper and lower 500 rows, changes the
  float format of the four weight matrices (the identity on the extended reals), and gives the three bias vectors a
  leading unit axis.  Read at an entry, each staged operand is an entry of an argument: a weight matrix is itself, a bias
  row at (0, u) is the vector at u, and row r of a classifier half is row off + r of the matrix.
-/
import proofs.«120439_j13692355739775_2_alg».proof.Proof.Gen.KernelIdeal.Frame
import proofs.«120439_j13692355739775_2_alg».proof.Proof.Spec
import Idealize.ShloMosaic.Lib.StableHlo.Run
import Idealize.ShloMosaic.Lib.Pipeline.Value
import Idealize.ShloMosaic.Lib.ValueLayout

noncomputable section

namespace Cert.KernelIdeal.HostReads

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The hidden state is not touched by the host stretch. -/
theorem arg0 (c : Dev nD) :
    (W1 m ρ c (Proc.devRef .tc main_arg0) : S16x1024x1024.Idx → EReal) = m ((c : Thread nD τ).loc main_arg0) := by
  show StableHlo.after hostOps0 (W0 m ρ c) (Proc.devRef .tc main_arg0) = _
  after_results

/-- The first branch's weights, in the matrix unit's format: the same extended reals. -/
theorem wDep (c : Dev nD) :
    (W1 m ρ c (Proc.devRef .tc main_v2) : S1024x500.Idx → EReal) = m ((c : Thread nD τ).loc main_arg1) := by
  show StableHlo.after hostOps0 (W0 m ρ c) (Proc.devRef .tc main_v2) = _
  after_results
  rfl

/-- The second branch's weights likewise. -/
theorem wHead (c : Dev nD) :
    (W1 m ρ c (Proc.devRef .tc main_v3) : S1024x500.Idx → EReal) = m ((c : Thread nD τ).loc main_arg3) := by
  show StableHlo.after hostOps0 (W0 m ρ c) (Proc.devRef .tc main_v3) = _
  after_results
  rfl

/-- A vector given a leading unit axis reads, at (0, u), the vector at u. -/
theorem row_eq {n : ℕ} (x : (⟨1, ![n]⟩ : Shape).Idx → EReal) (h : (⟨1, ![n]⟩ : Shape).ShapeCasts ⟨2, ![1, n]⟩) :
    shapeCast ⟨2, ![1, n]⟩ x h = Cert.Biaffine.rowOf x := by
  funext i
  obtain ⟨u, a, rfl⟩ : ∃ (u : Fin 1) (a : Fin n), i = ix2 u a := ⟨i 0, i 1, eq_ix2 i⟩
  exact shapeCast_a_1a_apply x h u a

/-- The first branch's bias as a row. -/
theorem bDep (c : Dev nD) :
    (W1 m ρ c (Proc.devRef .tc main_v6) : S1x500.Idx → EReal) = Cert.Biaffine.rowOf (m ((c : Thread nD τ).loc main_arg2)) := by
  show StableHlo.after hostOps0 (W0 m ρ c) (Proc.devRef .tc main_v6) = _
  after_results
  exact row_eq (m ((c : Thread nD τ).loc main_arg2)) shapeCasts_S500_S1x500

/-- The second branch's bias as a row. -/
theorem bHead (c : Dev nD) :
    (W1 m ρ c (Proc.devRef .tc main_v7) : S1x500.Idx → EReal) = Cert.Biaffine.rowOf (m ((c : Thread nD τ).loc main_arg4)) := by
  show StableHlo.after hostOps0 (W0 m ρ c) (Proc.devRef .tc main_v7) = _
  after_results
  exact row_eq (m ((c : Thread nD τ).loc main_arg4)) shapeCasts_S500_S1x500

/-- The class bias as a row. -/
theorem bCls (c : Dev nD) :
    (W1 m ρ c (Proc.devRef .tc main_v8) : S1x2.Idx → EReal) = Cert.Biaffine.rowOf (m ((c : Thread nD τ).loc main_arg6)) := by
  show StableHlo.after hostOps0 (W0 m ρ c) (Proc.devRef .tc main_v8) = _
  after_results
  exact row_eq (m ((c : Thread nD τ).loc main_arg6)) shapeCasts_S2_S1x2

/-- Rows off .. off + 499 of the classifier matrix: row r of the cut is row off + r of the matrix. -/
theorem rows_eq (off : ℕ) (hoff : off + 500 ≤ 1000) (x : (⟨2, ![1000, 2]⟩ : Shape).Idx → EReal)
    (h : (⟨2, ![1000, 2]⟩ : Shape).Slices ![off, 0] ⟨2, ![500, 2]⟩) :
    extractStridedSlice ⟨2, ![500, 2]⟩ ![off, 0] x h = Cert.Biaffine.rowsFrom off hoff x := by
  funext i
  obtain ⟨r, k, rfl⟩ : ∃ (r : Fin 500) (k : Fin 2), i = ix2 r k := ⟨i 0, i 1, eq_ix2 i⟩
  exact slice2_axis0_apply off x h r k ⟨off + r.val, by omega⟩ rfl

/-- The first branch's classifier rows (the upper half). -/
theorem wcDep (c : Dev nD) :
    (W1 m ρ c (Proc.devRef .tc main_v4) : S500x2.Idx → EReal)
      = Cert.Biaffine.rowsFrom 0 (by omega) (m ((c : Thread nD τ).loc main_arg5)) := by
  show StableHlo.after hostOps0 (W0 m ρ c) (Proc.devRef .tc main_v4) = _
  after_results
  exact rows_eq 0 (by omega) (m ((c : Thread nD τ).loc main_arg5)) slices_S1000x2_S500x2_0_0

/-- The second branch's classifier rows (the lower half). -/
theorem wcHead (c : Dev nD) :
    (W1 m ρ c (Proc.devRef .tc main_v5) : S500x2.Idx → EReal)
      = Cert.Biaffine.rowsFrom 500 (by omega) (m ((c : Thread nD τ).loc main_arg5)) := by
  show StableHlo.after hostOps0 (W0 m ρ c) (Proc.devRef .tc main_v5) = _
  after_results
  exact rows_eq 500 (by omega) (m ((c : Thread nD τ).loc main_arg5)) slices_S1000x2_S500x2_500_0

end Cert.KernelIdeal.HostReads

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.ScorePayload.lean ====
/-
  The first kernel region's arithmetic read at one entry, on the extended reals.

  From a block X [1, 1024, 1024] of the hidden state, weights W [1024, 500], a bias row b [1, 500] and 500 classifier rows
  Wc [500, 2], a branch forms Y = X·W + b (the bias row repeated down the 1024 rows), applies LeakyReLU entrywise, and
  multiplies by Wc; the result [1024, 2] is given a leading unit axis.  At the entry (0, l, k) this is
      ∑ u, leaky ((∑ d, X (0, l, d) · W (d, u)) + b (0, u)) · Wc (u, k):
  a product into the zero splat is the plain sum of products, the roundings to bf16 are the identity on the extended
  reals, and the unit-axis casts keep the row-major position.  Nothing is redistributed, so no operand need be finite.
-/
import proofs.«120439_j13692355739775_2_alg».proof.Proof.Gen.KernelIdeal.Skeleton
import proofs.«120439_j13692355739775_2_alg».proof.Proof.Spec
import proofs.«120439_j13692355739775_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ScorePayload

open Idealize.ShloMosaic Idealize.ShloMosaic.ValueIdx Cert.KernelIdeal Cert.KernelIdeal.Gen

/-- The first product's dimension record is the plain 1024×1024 by 1024×500 one. -/
theorem dot1_eq : dot_S1024x1024_S1024x500_S1024x500_1_0_0_1_n_n = DotDims.plain 1024 1024 500 := rfl
/-- The second product's dimension record is the plain 1024×500 by 500×2 one. -/
theorem dot2_eq : dot_S1024x500_S500x2_S1024x2_1_0_0_1_n_n = DotDims.plain 1024 500 2 := rfl

/-- The first product into the zero splat at (a, u): the sum over the 1024 contracted columns. -/
theorem matmul1_apply (A : FVec Ideal S1024x1024 .bf16) (B : FVec Ideal S1024x500 .bf16) (a : Fin 1024) (u : Fin 500) :
    matmul dot_S1024x1024_S1024x500_S1024x500_1_0_0_1_n_n none A B (constant (F := Ideal) S1024x500 .f32 0x00000000#32) (ix2 a u)
      = ∑ d : Fin 1024, A (ix2 a d) * B (ix2 d u) := by
  rw [dot1_eq]
  exact Cert.PlainDot.matmul_zero_plain_apply none A B a u

/-- The second product into the zero splat at (a, k): the sum over the 500 contracted hidden units. -/
theorem matmul2_apply (A : FVec Ideal S1024x500 .bf16) (B : FVec Ideal S500x2 .bf16) (a : Fin 1024) (k : Fin 2) :
    matmul dot_S1024x500_S500x2_S1024x2_1_0_0_1_n_n none A B (constant (F := Ideal) S1024x2 .f32 0x00000000#32) (ix2 a k)
      = ∑ u : Fin 500, A (ix2 a u) * B (ix2 u k) := by
  rw [dot2_eq]
  exact Cert.PlainDot.matmul_zero_plain_apply none A B a k

/-- The block [1, 1024, 1024] with its unit axis dropped: entry (a, d) is entry (0, a, d). -/
theorem dropUnit_apply (x0 : Vec Ideal S1x1024x1024 .f32) (h : S1x1024x1024.ShapeCasts S1024x1024) (a d : Fin 1024) :
    shapeCast S1024x1024 x0 h (ix2 a d) = x0 (ix3 (0 : Fin 1) a d) :=
  shapeCast_apply x0 h _ _ (by
    rw [Shape.rowMajor_val_three, Shape.rowMajor_val_two]
    show ((0 : Fin 1).val * 1024 + a.val) * 1024 + d.val = a.val * 1024 + d.val
    simp)

/-- The scores [1024, 2] given a leading unit axis: entry (0, l, k) is entry (l, k). -/
theorem addUnit_apply (v : FVec Ideal S1024x2 .f32) (h : S1024x2.ShapeCasts S1x1024x2) (l : Fin 1024) (k : Fin 2) :
    shapeCast S1x1024x2 v h (ix3 (0 : Fin 1) l k) = v (ix2 l k) :=
  shapeCast_apply v h _ _ (by
    rw [Shape.rowMajor_val_three, Shape.rowMajor_val_two]
    show l.val * 2 + k.val = ((0 : Fin 1).val * 1024 + l.val) * 2 + k.val
    simp)

/-- The pre-activation at (a, u): row a of the hidden state against column u of the weights, plus the bias at u. The
    rounding of the hidden state to bf16 is the identity on the extended reals. -/
theorem pre_apply (x0 : FVec Ideal S1x1024x1024 .f32) (x1 : FVec Ideal S1024x500 .bf16) (x2 : FVec Ideal S1x500 .f32)
    (h1 : S1x1024x1024.ShapeCasts S1024x1024) (h2 : FTy.bits .bf16 < FTy.bits .f32) (h3 : S1x500.Broadcasts S1024x500)
    (a : Fin 1024) (u : Fin 500) :
    addf (matmul dot_S1024x1024_S1024x500_S1024x500_1_0_0_1_n_n none
        (truncf .bf16 (shapeCast S1024x1024 x0 h1 : FVec Ideal S1024x1024 .f32) h2 : FVec Ideal S1024x1024 .bf16) x1
        (constant (F := Ideal) S1024x500 .f32 0x00000000#32)) (broadcastTo S1024x500 x2 h3 : FVec Ideal S1024x500 .f32) (ix2 a u)
      = (∑ d : Fin 1024, x0 (ix3 (0 : Fin 1) a d) * x1 (ix2 d u)) + x2 (ix2 (0 : Fin 1) u) := by
  refine (addf_apply _ _ _).trans ?_
  refine congrArg₂ (· + ·) ?_ (broadcastTo_1b_ab_apply x2 h3 a u)
  refine (matmul1_apply _ _ a u).trans (Finset.sum_congr rfl fun d _ => congrArg (· * x1 (ix2 d u)) ?_)
  exact (truncf_apply (φ := .f32) (ψ := .bf16) _ h2 _).trans (dropUnit_apply x0 h1 a d)

/-- The activation at (a, u): LeakyReLU of the pre-activation there; the rounding to bf16 is the identity on the
    extended reals. -/
theorem act_apply (Y : FVec Ideal S1024x500 .f32) (h2 : FTy.bits .bf16 < FTy.bits .f32) (a : Fin 1024) (u : Fin 500) :
    (truncf .bf16 (select (cmpf .oge Y (broadcast S1024x500 (Scalar.ofBits (F := Ideal) .f32 0x00000000#32))) Y
        (mulf (broadcast S1024x500 (Scalar.ofBits (F := Ideal) .f32 0x3C23D70A#32)) Y)) h2 : FVec Ideal S1024x500 .bf16) (ix2 a u)
      = Cert.Biaffine.leaky (Y (ix2 a u)) := rfl

/-- The first branch's scores [1024, 2] at (l, k): the sum over the 500 hidden units of the activation at (l, u) times
    the classifier entry (u, k), the activation being LeakyReLU of row l of the block against column u of the weights
    plus the bias at u. -/
theorem pay4_apply (x0 : Vec Ideal S1x1024x1024 .f32) (x1 : Vec Ideal S1024x500 .bf16) (x2 : Vec Ideal S1x500 .f32)
    (x5 : Vec Ideal S500x2 .bf16) (l : Fin 1024) (k : Fin 2) :
    k0_pay4 x0 x1 x2 x5 (ix2 l k) = Cert.Biaffine.scoreOf (fun d => x0 (ix3 (0 : Fin 1) l d)) x1 x2 x5 k := by
  unfold k0_pay4 k0_pay3
  simp only [shapeCast_self]
  refine (matmul2_apply _ _ l k).trans ?_
  unfold Cert.Biaffine.scoreOf
  refine Finset.sum_congr rfl fun u _ => congrArg (· * x5 (ix2 u k)) ?_
  exact (act_apply _ _ l u).trans (congrArg Cert.Biaffine.leaky (pre_apply x0 x1 x2 _ _ _ l u))

/-- The second branch's scores at (l, k): the same reading on its own weights, bias and classifier rows. -/
theorem pay5_apply (x0 : Vec Ideal S1x1024x1024 .f32) (x3 : Vec Ideal S1024x500 .bf16) (x4 : Vec Ideal S1x500 .f32)
    (x6 : Vec Ideal S500x2 .bf16) (l : Fin 1024) (k : Fin 2) :
    k0_pay5 x0 x3 x4 x6 (ix2 l k) = Cert.Biaffine.scoreOf (fun d => x0 (ix3 (0 : Fin 1) l d)) x3 x4 x6 k := by
  unfold k0_pay5 k0_pay3
  simp only [shapeCast_self]
  refine (matmul2_apply _ _ l k).trans ?_
  unfold Cert.Biaffine.scoreOf
  refine Finset.sum_congr rfl fun u _ => congrArg (· * x6 (ix2 u k)) ?_
  exact (act_apply _ _ l u).trans (congrArg Cert.Biaffine.leaky (pre_apply x0 x3 x4 _ _ _ l u))

/-- The first branch's stored block [1, 1024, 2] at (0, l, k) is the score of row l of the hidden-state block. -/
theorem dep_apply (x0 : Vec Ideal S1x1024x1024 .f32) (x1 : Vec Ideal S1024x500 .bf16) (x2 : Vec Ideal S1x500 .f32) (x5 : Vec Ideal S500x2 .bf16)
    (l : Fin 1024) (k : Fin 2) :
    k0_pay1 (k0_pay4 x0 x1 x2 x5) (ix3 (0 : Fin 1) l k) = Cert.Biaffine.scoreOf (fun d => x0 (ix3 (0 : Fin 1) l d)) x1 x2 x5 k := by
  unfold k0_pay1
  exact (addUnit_apply _ _ l k).trans (pay4_apply x0 x1 x2 x5 l k)

/-- The second branch's stored block [1, 1024, 2] at (0, l, k) is the score of row l of the hidden-state block. -/
theorem head_apply (x0 : Vec Ideal S1x1024x1024 .f32) (x3 : Vec Ideal S1024x500 .bf16) (x4 : Vec Ideal S1x500 .f32) (x6 : Vec Ideal S500x2 .bf16)
    (l : Fin 1024) (k : Fin 2) :
    k0_pay2 (k0_pay5 x0 x3 x4 x6) (ix3 (0 : Fin 1) l k) = Cert.Biaffine.scoreOf (fun d => x0 (ix3 (0 : Fin 1) l d)) x3 x4 x6 k := by
  unfold k0_pay2
  exact (addUnit_apply _ _ l k).trans (pay5_apply x0 x3 x4 x6 l k)

end Cert.KernelIdeal.ScorePayload

end
-- ==== Proof.Score.lean ====
/-
  The first region's two results as whole arrays.

  The region runs once per batch member n (16 grid points).  At point n it stages row block n of the hidden state
  ([1, 1024, 1024]) and the six small operands whole, and writes block n ([1, 1024, 2]) of each score array.  So entry
  (n, l, k) of a score array depends on row l of member n of the hidden state and on the whole of the branch's
  weights, bias row and classifier rows, and the sixteen blocks tile the array.
-/
import proofs.«120439_j13692355739775_2_alg».proof.Proof.Gen.KernelIdeal.Frame
import proofs.«120439_j13692355739775_2_alg».proof.Proof.Spec
import proofs.«120439_j13692355739775_2_alg».proof.Proof.ScorePayload
import Idealize.ShloMosaic.Lib.Pipeline.Value
import Idealize.ShloMosaic.Lib.ValueIdx

set_option maxRecDepth 16384

noncomputable section

namespace Cert.KernelIdeal.ScoreValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block maps over the sixteen points: the hidden state's and both results' block index is (n, 0, 0) at point n;
    every other operand has the one block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- An operand staged whole: its one block is the array. -/
theorem whole1 (c : Dev nD) (t : Fin cfg0.N) : (iblk0 V c 1 t : Vec Ideal S1024x500 .bf16) = V c main_v2 := by
  obtain ⟨-, -, -, e0, e1, -⟩ := idx_facts t
  funext j
  show V c main_v2 (((cfg0.win 1).blk t).view.emb j) = V c main_v2 j
  refine congrArg _ (funext fun a => Fin.ext ?_)
  match a with
  | ⟨0, _⟩ => show win0_1.index t (0 : Fin 2) * 1024 + 1 * (j 0).val = (j 0).val; rw [e0]; omega
  | ⟨1, _⟩ => show win0_1.index t (1 : Fin 2) * 500 + 1 * (j 1).val = (j 1).val; rw [e1]; omega
theorem whole2 (c : Dev nD) (t : Fin cfg0.N) : (iblk0 V c 2 t : Vec Ideal S1x500 .f32) = V c main_v6 := by
  obtain ⟨-, -, -, -, -, e0, e1, -⟩ := idx_facts t
  funext j
  show V c main_v6 (((cfg0.win 2).blk t).view.emb j) = V c main_v6 j
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 500 + 1 * (j 1).val = (j 1).val; rw [e1]; omega
theorem whole3 (c : Dev nD) (t : Fin cfg0.N) : (iblk0 V c 3 t : Vec Ideal S1024x500 .bf16) = V c main_v3 := by
  obtain ⟨-, -, -, -, -, -, -, e0, e1, -⟩ := idx_facts t
  funext j
  show V c main_v3 (((cfg0.win 3).blk t).view.emb j) = V c main_v3 j
  refine congrArg _ (funext fun a => Fin.ext ?_)
  match a with
  | ⟨0, _⟩ => show win0_3.index t (0 : Fin 2) * 1024 + 1 * (j 0).val = (j 0).val; rw [e0]; omega
  | ⟨1, _⟩ => show win0_3.index t (1 : Fin 2) * 500 + 1 * (j 1).val = (j 1).val; rw [e1]; omega
theorem whole4 (c : Dev nD) (t : Fin cfg0.N) : (iblk0 V c 4 t : Vec Ideal S1x500 .f32) = V c main_v7 := by
  obtain ⟨-, -, -, -, -, -, -, -, -, e0, e1, -⟩ := idx_facts t
  funext j
  show V c main_v7 (((cfg0.win 4).blk t).view.emb j) = V c main_v7 j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 500 + 1 * (j 1).val = (j 1).val; rw [e1]; omega
theorem whole5 (c : Dev nD) (t : Fin cfg0.N) : (iblk0 V c 5 t : Vec Ideal S500x2 .bf16) = V c main_v4 := by
  obtain ⟨-, -, -, -, -, -, -, -, -, -, -, e0, e1, -⟩ := idx_facts t
  funext j
  show V c main_v4 (((cfg0.win 5).blk t).view.emb j) = V c main_v4 j
  refine congrArg _ (funext fun a => Fin.ext ?_)
  match a with
  | ⟨0, _⟩ => show win0_5.index t (0 : Fin 2) * 500 + 1 * (j 0).val = (j 0).val; rw [e0]; omega
  | ⟨1, _⟩ => show win0_5.index t (1 : Fin 2) * 2 + 1 * (j 1).val = (j 1).val; rw [e1]; omega
theorem whole6 (c : Dev nD) (t : Fin cfg0.N) : (iblk0 V c 6 t : Vec Ideal S500x2 .bf16) = V c main_v5 := by
  obtain ⟨-, -, -, -, -, -, -, -, -, -, -, -, -, e0, e1, -⟩ := idx_facts t
  funext j
  show V c main_v5 (((cfg0.win 6).blk t).view.emb j) = V c main_v5 j
  refine congrArg _ (funext fun a => Fin.ext ?_)
  match a with
  | ⟨0, _⟩ => show win0_6.index t (0 : Fin 2) * 500 + 1 * (j 0).val = (j 0).val; rw [e0]; omega
  | ⟨1, _⟩ => show win0_6.index t (1 : Fin 2) * 2 + 1 * (j 1).val = (j 1).val; rw [e1]; omega

/-- Row l of the hidden state's block at point t is row l of batch member t. -/
theorem hidden_row (c : Dev nD) (t : Fin cfg0.N) (n : Fin 16) (hn : n.val = t.val) (l : Fin 1024) (d : Fin 1024) :
    (iblk0 V c 0 t : Vec Ideal S1x1024x1024 .f32) (ix3 (0 : Fin 1) l d) = V c main_arg0 (ix3 n l d) := by
  obtain ⟨e0, e1, e2, -⟩ := idx_facts t
  show V c main_arg0 (((cfg0.win 0).blk t).view.emb (ix3 (0 : Fin 1) l d)) = V c main_arg0 (ix3 n l d)
  refine congrArg _ (funext fun a => Fin.ext ?_)
  match a with
  | ⟨0, _⟩ => show win0_0.index t (0 : Fin 3) * 1 + 1 * 0 = n.val; rw [e0]; omega
  | ⟨1, _⟩ => show win0_0.index t (1 : Fin 3) * 1024 + 1 * l.val = l.val; rw [e1]; omega
  | ⟨2, _⟩ => show win0_0.index t (2 : Fin 3) * 1024 + 1 * d.val = d.val; rw [e2]; omega

/-- What point t writes back of the first branch's scores is block t of the score array. -/
theorem flushed7_eq (c : Dev nD) (t : Fin cfg0.N) :
    (dat0 V c).flushed 7 t = ((cfg0.win 7).blk t).view.read (Elt Ideal)
      (Cert.Biaffine.scores (V c main_arg0) (V c main_v2) (V c main_v6) (V c main_v4)) := by
  show (cfg0.win 7).cut (grid0.coords t) ((dat0 V c).after 7 t) = _
  rw [after0_7]
  unfold out0_7
  rw [View.canon_unit_zero hz3]
  simp only [View.ld_unit_zero (S := S1x1024x1024) hz3, View.ld_unit_zero (S := S1024x500) hz2,
    View.ld_unit_zero (S := S1x500) hz2, View.ld_unit_zero (S := S500x2) hz2]
  rw [whole1 V c t, whole2 V c t, whole5 V c t]
  obtain ⟨-, -, -, -, -, -, -, -, -, -, -, -, -, -, -, e0, e1, e2, -⟩ := idx_facts t
  have hN : cfg0.N = 16 := N_0
  funext j
  obtain ⟨u, l, k, rfl⟩ : ∃ (u : Fin 1) (l : Fin 1024) (k : Fin 2), j = ix3 u l k := ⟨j 0, j 1, j 2, eq_ix3 j⟩
  obtain rfl : u = 0 := Subsingleton.elim _ _
  refine (Cert.KernelIdeal.ScorePayload.dep_apply _ _ _ _ l k).trans ?_
  show _ = Cert.Biaffine.scores (V c main_arg0) (V c main_v2) (V c main_v6) (V c main_v4) (((cfg0.win 7).blk t).view.emb (ix3 (0 : Fin 1) l k))
  have hemb : ((cfg0.win 7).blk t).view.emb (ix3 (0 : Fin 1) l k) = ix3 (⟨t.val, by omega⟩ : Fin 16) l k := by
    funext a; apply Fin.ext
    match a with
    | ⟨0, _⟩ => show win0_7.index t (0 : Fin 3) * 1 + 1 * 0 = t.val; rw [e0]; omega
    | ⟨1, _⟩ => show win0_7.index t (1 : Fin 3) * 1024 + 1 * l.val = l.val; rw [e1]; omega
    | ⟨2, _⟩ => show win0_7.index t (2 : Fin 3) * 2 + 1 * k.val = k.val; rw [e2]; omega
  rw [hemb]
  show _ = Cert.Biaffine.scoreOf (fun d => V c main_arg0 (ix3 (⟨t.val, by omega⟩ : Fin 16) l d)) (V c main_v2) (V c main_v6) (V c main_v4) k
  exact congrArg (fun x => Cert.Biaffine.scoreOf x (V c main_v2) (V c main_v6) (V c main_v4) k)
    (funext fun d => hidden_row V c t ⟨t.val, by omega⟩ rfl l d)

/-- The same for the second branch. -/
theorem flushed8_eq (c : Dev nD) (t : Fin cfg0.N) :
    (dat0 V c).flushed 8 t = ((cfg0.win 8).blk t).view.read (Elt Ideal)
      (Cert.Biaffine.scores (V c main_arg0) (V c main_v3) (V c main_v7) (V c main_v5)) := by
  show (cfg0.win 8).cut (grid0.coords t) ((dat0 V c).after 8 t) = _
  rw [after0_8]
  unfold out0_8
  rw [View.canon_unit_zero hz3]
  simp only [View.ld_unit_zero (S := S1x1024x1024) hz3, View.ld_unit_zero (S := S1024x500) hz2,
    View.ld_unit_zero (S := S1x500) hz2, View.ld_unit_zero (S := S500x2) hz2]
  rw [whole3 V c t, whole4 V c t, whole6 V c t]
  obtain ⟨-, -, -, -, -, -, -, -, -, -, -, -, -, -, -, -, -, -, e0, e1, e2⟩ := idx_facts t
  have hN : cfg0.N = 16 := N_0
  funext j
  obtain ⟨u, l, k, rfl⟩ : ∃ (u : Fin 1) (l : Fin 1024) (k : Fin 2), j = ix3 u l k := ⟨j 0, j 1, j 2, eq_ix3 j⟩
  obtain rfl : u = 0 := Subsingleton.elim _ _
  refine (Cert.KernelIdeal.ScorePayload.head_apply _ _ _ _ l k).trans ?_
  show _ = Cert.Biaffine.scores (V c main_arg0) (V c main_v3) (V c main_v7) (V c main_v5) (((cfg0.win 8).blk t).view.emb (ix3 (0 : Fin 1) l k))
  have hemb : ((cfg0.win 8).blk t).view.emb (ix3 (0 : Fin 1) l k) = ix3 (⟨t.val, by omega⟩ : Fin 16) l k := by
    funext a; apply Fin.ext
    match a with
    | ⟨0, _⟩ => show win0_8.index t (0 : Fin 3) * 1 + 1 * 0 = t.val; rw [e0]; omega
    | ⟨1, _⟩ => show win0_8.index t (1 : Fin 3) * 1024 + 1 * l.val = l.val; rw [e1]; omega
    | ⟨2, _⟩ => show win0_8.index t (2 : Fin 3) * 2 + 1 * k.val = k.val; rw [e2]; omega
  rw [hemb]
  show _ = Cert.Biaffine.scoreOf (fun d => V c main_arg0 (ix3 (⟨t.val, by omega⟩ : Fin 16) l d)) (V c main_v3) (V c main_v7) (V c main_v5) k
  exact congrArg (fun x => Cert.Biaffine.scoreOf x (V c main_v3) (V c main_v7) (V c main_v5) k)
    (funext fun d => hidden_row V c t ⟨t.val, by omega⟩ rfl l d)

/-- An index of a score array lies in point t's block iff its batch coordinate is t (the other axes are whole). -/
theorem mem_blk7 (t : Fin cfg0.N) (i : S16x1024x2.Idx) :
    i ∈ ((cfg0.win 7).blk t).view.set ↔ ∀ a : Fin 3, win0_7.index t a * S1x1024x2.size a ≤ (i a).val ∧ (i a).val < win0_7.index t a * S1x1024x2.size a + S1x1024x2.size a := by
  show i ∈ ((View.whole main_v9_0).slice (win0_7.rect t)).set ↔ _
  rw [View.set_slice_whole, Rect.mem_set_unit]
  exact Iff.rfl
theorem mem_blk8 (t : Fin cfg0.N) (i : S16x1024x2.Idx) :
    i ∈ ((cfg0.win 8).blk t).view.set ↔ ∀ a : Fin 3, win0_8.index t a * S1x1024x2.size a ≤ (i a).val ∧ (i a).val < win0_8.index t a * S1x1024x2.size a + S1x1024x2.size a := by
  show i ∈ ((View.whole main_v9_1).slice (win0_8.rect t)).set ↔ _
  rw [View.set_slice_whole, Rect.mem_set_unit]
  exact Iff.rfl

/-- Every entry (n, l, k) is in the block of point n. -/
theorem cover7 (i : S16x1024x2.Idx) : ∃ t : Fin cfg0.N, (cfg0.win 7).flush t = true ∧ i ∈ ((cfg0.win 7).blk t).view.set := by
  obtain ⟨n, l, k, rfl⟩ : ∃ (n : Fin 16) (l : Fin 1024) (k : Fin 2), i = ix3 n l k := ⟨i 0, i 1, i 2, eq_ix3 i⟩
  have hN : cfg0.N = 16 := N_0
  refine ⟨⟨n.val, by omega⟩, flush0_7 _, ?_⟩
  rw [mem_blk7]
  obtain ⟨-, -, -, -, -, -, -, -, -, -, -, -, -, -, -, e0, e1, e2, -⟩ := idx_facts (⟨n.val, by omega⟩ : Fin cfg0.N)
  intro a
  match a with
  | ⟨0, _⟩ => show win0_7.index _ (0 : Fin 3) * 1 ≤ n.val ∧ n.val < win0_7.index _ (0 : Fin 3) * 1 + 1; rw [e0]; show n.val * 1 ≤ n.val ∧ n.val < n.val * 1 + 1; omega
  | ⟨1, _⟩ => show win0_7.index _ (1 : Fin 3) * 1024 ≤ l.val ∧ l.val < win0_7.index _ (1 : Fin 3) * 1024 + 1024; rw [e1]; omega
  | ⟨2, _⟩ => show win0_7.index _ (2 : Fin 3) * 2 ≤ k.val ∧ k.val < win0_7.index _ (2 : Fin 3) * 2 + 2; rw [e2]; omega
theorem cover8 (i : S16x1024x2.Idx) : ∃ t : Fin cfg0.N, (cfg0.win 8).flush t = true ∧ i ∈ ((cfg0.win 8).blk t).view.set := by
  obtain ⟨n, l, k, rfl⟩ : ∃ (n : Fin 16) (l : Fin 1024) (k : Fin 2), i = ix3 n l k := ⟨i 0, i 1, i 2, eq_ix3 i⟩
  have hN : cfg0.N = 16 := N_0
  refine ⟨⟨n.val, by omega⟩, flush0_8 _, ?_⟩
  rw [mem_blk8]
  obtain ⟨-, -, -, -, -, -, -, -, -, -, -, -, -, -, -, -, -, -, e0, e1, e2⟩ := idx_facts (⟨n.val, by omega⟩ : Fin cfg0.N)
  intro a
  match a with
  | ⟨0, _⟩ => show win0_8.index _ (0 : Fin 3) * 1 ≤ n.val ∧ n.val < win0_8.index _ (0 : Fin 3) * 1 + 1; rw [e0]; show n.val * 1 ≤ n.val ∧ n.val < n.val * 1 + 1; omega
  | ⟨1, _⟩ => show win0_8.index _ (1 : Fin 3) * 1024 ≤ l.val ∧ l.val < win0_8.index _ (1 : Fin 3) * 1024 + 1024; rw [e1]; omega
  | ⟨2, _⟩ => show win0_8.index _ (2 : Fin 3) * 2 ≤ k.val ∧ k.val < win0_8.index _ (2 : Fin 3) * 2 + 2; rw [e2]; omega

/-- After the region the first branch's score array is the score function of the operands as the region found them. -/
theorem final_dep (c : Dev nD) :
    (dat0 V c).arrAt 7 cfg0.N = Cert.Biaffine.scores (V c main_arg0) (V c main_v2) (V c main_v6) (V c main_v4) :=
  (dat0 V c).arrAt_eq_of_cover 7 _ (fun t _ => flushed7_eq V c t) cover7

/-- And the second branch's. -/
theorem final_head (c : Dev nD) :
    (dat0 V c).arrAt 8 cfg0.N = Cert.Biaffine.scores (V c main_arg0) (V c main_v3) (V c main_v7) (V c main_v5) :=
  (dat0 V c).arrAt_eq_of_cover 8 _ (fun t _ => flushed8_eq V c t) cover8

end Cert.KernelIdeal.ScoreValue

end
-- ==== Proof.LibUnitAxes4.lean ====
/-
  Unit axes added to an array and spread to rank 4, read at an entry.

  A pairwise combination x[:, :, None, :] ∘ y[:, None, :, :] ∘ z[:, None, None, :] gives each operand a unit axis where
  another varies and broadcasts all three to [a, b, m, c].  Read at (p, n, q, d): a cast that inserts unit axes keeps the
  row-major position, so [a, b, c] → [a, b, 1, c] and [a, b, c] → [a, 1, b, c] read the operand at the remaining
  coordinates and [a, c] → [a, 1, 1, c] at (p, d); a broadcast along unit axes reads the operand at coordinate 0 there.
  Any extents, any element type.
-/
import Idealize.ShloMosaic.Lib.ValueIdx
import Idealize.ShloMosaic.Lib.Pipeline.Value

noncomputable section

namespace Cert.Lib.UnitAxes4

open Idealize.ShloMosaic Idealize.ShloMosaic.ValueIdx

/-! ## Unit axes added and spread: each layout operation read at an entry -/

section Layout
variable {α : Type}

/-- [a, b, c] given a unit axis before the last: entry (p, n, u, d) is entry (p, n, d). -/
theorem shapeCast_abc_ab1c_apply {a b c : ℕ} (x : (⟨3, ![a, b, c]⟩ : Shape).Idx → α)
    (h : (⟨3, ![a, b, c]⟩ : Shape).ShapeCasts ⟨4, ![a, b, 1, c]⟩) (p : Fin a) (n : Fin b) (u : Fin 1) (d : Fin c) :
    shapeCast ⟨4, ![a, b, 1, c]⟩ x h (ix4 p n u d) = x (ix3 p n d) :=
  shapeCast_apply x h _ _ (by
    have hu : u.val = 0 := by omega
    rw [Shape.rowMajor_val_three, Shape.rowMajor_val_four]
    show (p.val * b + n.val) * c + d.val = (((p.val * b + n.val) * 1 + u.val) * c + d.val)
    rw [hu, Nat.mul_one, Nat.add_zero])

/-- [a, b, c] given a unit axis after the first: entry (p, u, n, d) is entry (p, n, d). -/
theorem shapeCast_abc_a1bc_apply {a b c : ℕ} (x : (⟨3, ![a, b, c]⟩ : Shape).Idx → α)
    (h : (⟨3, ![a, b, c]⟩ : Shape).ShapeCasts ⟨4, ![a, 1, b, c]⟩) (p : Fin a) (u : Fin 1) (n : Fin b) (d : Fin c) :
    shapeCast ⟨4, ![a, 1, b, c]⟩ x h (ix4 p u n d) = x (ix3 p n d) :=
  shapeCast_apply x h _ _ (by
    have hu : u.val = 0 := by omega
    rw [Shape.rowMajor_val_three, Shape.rowMajor_val_four]
    show (p.val * b + n.val) * c + d.val = (((p.val * 1 + u.val) * b + n.val) * c + d.val)
    rw [hu, Nat.mul_one, Nat.add_zero])

/-- [a, c] given two unit axes in the middle: entry (p, u, w, d) is entry (p, d). -/
theorem shapeCast_ac_a11c_apply {a c : ℕ} (x : (⟨2, ![a, c]⟩ : Shape).Idx → α)
    (h : (⟨2, ![a, c]⟩ : Shape).ShapeCasts ⟨4, ![a, 1, 1, c]⟩) (p : Fin a) (u w : Fin 1) (d : Fin c) :
    shapeCast ⟨4, ![a, 1, 1, c]⟩ x h (ix4 p u w d) = x (ix2 p d) :=
  shapeCast_apply x h _ _ (by
    have hu : u.val = 0 := by omega
    have hw : w.val = 0 := by omega
    rw [Shape.rowMajor_val_two, Shape.rowMajor_val_four]
    show p.val * c + d.val = (((p.val * 1 + u.val) * 1 + w.val) * c + d.val)
    rw [hu, hw]
    simp only [Nat.mul_one, Nat.add_zero])

/-- [a, b, 1, c] broadcast over its unit axis to [a, b, m, c]: entry (p, n, q, d) is entry (p, n, 0, d). -/
theorem broadcastTo_ab1c_abmc_apply {a b m c : ℕ} (v : (⟨4, ![a, b, 1, c]⟩ : Shape).Idx → α)
    (h : (⟨4, ![a, b, 1, c]⟩ : Shape).Broadcasts ⟨4, ![a, b, m, c]⟩) (p : Fin a) (n : Fin b) (q : Fin m) (d : Fin c) :
    broadcastTo ⟨4, ![a, b, m, c]⟩ v h (ix4 p n q d) = v (ix4 p n (0 : Fin 1) d) := by
  refine broadcastTo_apply v h (ix4 p n q d) (ix4 p n (0 : Fin 1) d) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ => rfl
  | ⟨3, _⟩ =>
    show d.val = if c = 1 then 0 else d.val
    split
    · have := d.isLt; omega
    · rfl

/-- [a, 1, m, c] broadcast over its unit axis to [a, b, m, c]: entry (p, n, q, d) is entry (p, 0, q, d). -/
theorem broadcastTo_a1mc_abmc_apply {a b m c : ℕ} (v : (⟨4, ![a, 1, m, c]⟩ : Shape).Idx → α)
    (h : (⟨4, ![a, 1, m, c]⟩ : Shape).Broadcasts ⟨4, ![a, b, m, c]⟩) (p : Fin a) (n : Fin b) (q : Fin m) (d : Fin c) :
    broadcastTo ⟨4, ![a, b, m, c]⟩ v h (ix4 p n q d) = v (ix4 p (0 : Fin 1) q d) := by
  refine broadcastTo_apply v h (ix4 p n q d) (ix4 p (0 : Fin 1) q d) fun ax => ?_
  match ax with
  | ⟨0, _⟩ =>
    show p.val = if a = 1 then 0 else p.val
    split
    · have := p.isLt; omega
    · rfl
  | ⟨1, _⟩ => rfl
  | ⟨2, _⟩ =>
    show q.val = if m = 1 then 0 else q.val
    split
    · have := q.isLt; omega
    · rfl
  | ⟨3, _⟩ =>
    show d.val = if c = 1 then 0 else d.val
    split
    · have := d.isLt; omega
    · rfl

/-- [a, 1, 1, c] broadcast over both unit axes to [a, b, m, c]: entry (p, n, q, d) is entry (p, 0, 0, d). -/
theorem broadcastTo_a11c_abmc_apply {a b m c : ℕ} (v : (⟨4, ![a, 1, 1, c]⟩ : Shape).Idx → α)
    (h : (⟨4, ![a, 1, 1, c]⟩ : Shape).Broadcasts ⟨4, ![a, b, m, c]⟩) (p : Fin a) (n : Fin b) (q : Fin m) (d : Fin c) :
    broadcastTo ⟨4, ![a, b, m, c]⟩ v h (ix4 p n q d) = v (ix4 p (0 : Fin 1) (0 : Fin 1) d) := by
  refine broadcastTo_apply v h (ix4 p n q d) (ix4 p (0 : Fin 1) (0 : Fin 1) d) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show d.val = if c = 1 then 0 else d.val
    split
    · have := d.isLt; omega
    · rfl

end Layout

end Cert.Lib.UnitAxes4

end
-- ==== Proof.PairValue.lean ====
/-
  The pairwise sum as the second region computes it, read entry by entry on the extended reals.

  The region walks 16 × 32 points.  Point t = n·32 + s takes rows s·32 … s·32 + 31 of batch member n from the first
  score array [16, 1024, 2], all 1024 positions of the same member from the second, and the class bias row [1, 2]; it
  gives each a unit axis where the other varies, spreads the three over a block [1, 32, 1024, 2] and adds them:
      block (0, r, q, k) = (first (0, r, k) + second (0, q, k)) + bias (0, k).
  The blocks tile the result [16, 1024, 1024, 2] (entry (n, p, q, k) lies in the block of point n·32 + p / 32, at row
  p mod 32), so the array ends holding (first (n, p, k) + second (n, q, k)) + bias (0, k) everywhere.
-/
import proofs.«120439_j13692355739775_2_alg».proof.Proof.Gen.KernelIdeal.Frame
import proofs.«120439_j13692355739775_2_alg».proof.Proof.Spec
import proofs.«120439_j13692355739775_2_alg».proof.Proof.LibUnitAxes4
import Idealize.ShloMosaic.Lib.ValueIdx
import Idealize.ShloMosaic.Lib.Pipeline.Value

noncomputable section

namespace Cert.KernelIdeal.PairValue

open Idealize.ShloMosaic Idealize.ShloMosaic.TcCoe Idealize.SL.Sem Idealize.ShloMosaic.ValueIdx
open Cert.KernelIdeal Cert.KernelIdeal.Gen Cert.Lib.UnitAxes4

/-- The body's value at an entry of its block: row r's score, plus position q's score, plus the class bias. -/
theorem pay_apply (x0 : Vec Ideal S1x32x2 .f32) (x1 : Vec Ideal S1x1024x2 .f32) (x2 : Vec Ideal S1x2 .f32)
    (r : Fin 32) (q : Fin 1024) (k : Fin 2) :
    k1_pay1 (F := Ideal) x0 x1 x2 (ix4 (0 : Fin 1) r q k)
      = (x0 (ix3 (0 : Fin 1) r k) + x1 (ix3 (0 : Fin 1) q k)) + x2 (ix2 (0 : Fin 1) k) := by
  unfold k1_pay1
  simp only [shapeCast_self]
  rw [addf_apply, addf_apply, broadcastTo_ab1c_abmc_apply, broadcastTo_a1mc_abmc_apply, broadcastTo_a11c_abmc_apply,
    shapeCast_abc_ab1c_apply, shapeCast_abc_a1bc_apply, shapeCast_ac_a11c_apply]

/-! ## The block maps, decided over the 512 grid points -/

/-- Point t = n·32 + s serves batch member n and the s-th group of 32 rows: the row window sits at block (n, s, 0),
    the position window at block (n, 0, 0), the bias at its one block, and the result at block (n, s, 0, 0). -/
theorem idx_facts : ∀ t : Fin cfg1.N,
    win1_0.index t (0 : Fin 3) = t.val / 32 ∧ win1_0.index t (1 : Fin 3) = t.val % 32 ∧ win1_0.index t (2 : Fin 3) = 0
    ∧ win1_1.index t (0 : Fin 3) = t.val / 32 ∧ win1_1.index t (1 : Fin 3) = 0 ∧ win1_1.index t (2 : Fin 3) = 0
    ∧ win1_2.index t (0 : Fin 2) = 0 ∧ win1_2.index t (1 : Fin 2) = 0
    ∧ win1_3.index t (0 : Fin 4) = t.val / 32 ∧ win1_3.index t (1 : Fin 4) = t.val % 32
    ∧ win1_3.index t (2 : Fin 4) = 0 ∧ win1_3.index t (3 : Fin 4) = 0 :=
  (by decide +kernel : ∀ t : Fin grid1.N, _)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Region
-- the buffer contents when the region is entered
variable (V : (c : Dev nD) → (b : Ref sig .tc) → Buf (Elt Ideal) ((c : Thread nD τ).loc b))

/-! ## An input block read off its array: block index × block extent + the coordinate inside the block -/

/-- The row window's block at point t holds rows (t mod 32)·32 … +31 of batch member t / 32. -/
theorem iblk0_apply (c : Dev nD) (t : Fin cfg1.N) (u : Fin 1) (r : Fin 32) (k : Fin 2)
    (n : Fin 16) (p : Fin 1024) (d : Fin 2)
    (hn : n.val = t.val / 32) (hp : p.val = (t.val % 32) * 32 + r.val) (hd : d.val = k.val) :
    (iblk1 (F := Ideal) V c 0 t : Vec Ideal S1x32x2 .f32) (ix3 u r k)
      = (V c main_v9_0 : S16x1024x2.Idx → EReal) (ix3 n p d) := by
  obtain ⟨e0, e1, e2, -⟩ := idx_facts t
  have hu : u.val = 0 := by omega
  unfold iblk1
  show (V c main_v9_0 : S16x1024x2.Idx → EReal) _ = (V c main_v9_0 : S16x1024x2.Idx → EReal) _
  congr 1
  funext a
  apply Fin.ext
  match a with
  | ⟨0, _⟩ => show win1_0.index t (0 : Fin 3) * 1 + 1 * u.val = n.val; omega
  | ⟨1, _⟩ => show win1_0.index t (1 : Fin 3) * 32 + 1 * r.val = p.val; omega
  | ⟨2, _⟩ => show win1_0.index t (2 : Fin 3) * 2 + 1 * k.val = d.val; omega

/-- The position window's block at point t holds all 1024 positions of batch member t / 32. -/
theorem iblk1_apply (c : Dev nD) (t : Fin cfg1.N) (u : Fin 1) (q : Fin 1024) (k : Fin 2)
    (n : Fin 16) (p : Fin 1024) (d : Fin 2)
    (hn : n.val = t.val / 32) (hp : p.val = q.val) (hd : d.val = k.val) :
    (iblk1 (F := Ideal) V c 1 t : Vec Ideal S1x1024x2 .f32) (ix3 u q k)
      = (V c main_v9_1 : S16x1024x2.Idx → EReal) (ix3 n p d) := by
  obtain ⟨-, -, -, e0, e1, e2, -⟩ := idx_facts t
  have hu : u.val = 0 := by omega
  unfold iblk1
  show (V c main_v9_1 : S16x1024x2.Idx → EReal) _ = (V c main_v9_1 : S16x1024x2.Idx → EReal) _
  congr 1
  funext a
  apply Fin.ext
  match a with
  | ⟨0, _⟩ => show win1_1.index t (0 : Fin 3) * 1 + 1 * u.val = n.val; omega
  | ⟨1, _⟩ => show win1_1.index t (1 : Fin 3) * 1024 + 1 * q.val = p.val; omega
  | ⟨2, _⟩ => show win1_1.index t (2 : Fin 3) * 2 + 1 * k.val = d.val; omega

/-- The bias window's one block is the bias row. -/
theorem iblk2_apply (c : Dev nD) (t : Fin cfg1.N) (u : Fin 1) (k : Fin 2) (w : Fin 1) (d : Fin 2)
    (hd : d.val = k.val) :
    (iblk1 (F := Ideal) V c 2 t : Vec Ideal S1x2 .f32) (ix2 u k)
      = (V c main_v8 : S1x2.Idx → EReal) (ix2 w d) := by
  obtain ⟨-, -, -, -, -, -, e0, e1, -⟩ := idx_facts t
  have hu : u.val = 0 := by omega
  have hw : w.val = 0 := by omega
  unfold iblk1
  show (V c main_v8 : S1x2.Idx → EReal) _ = (V c main_v8 : S1x2.Idx → EReal) _
  congr 1
  funext a
  apply Fin.ext
  match a with
  | ⟨0, _⟩ => show win1_2.index t (0 : Fin 2) * 1 + 1 * u.val = w.val; omega
  | ⟨1, _⟩ => show win1_2.index t (1 : Fin 2) * 2 + 1 * k.val = d.val; omega

/-! ## What a point writes back, and the whole array -/

/-- Point t writes back block t of the pairwise sum of the three arrays as the region finds them. -/
theorem flushed_eq (c : Dev nD) (t : Fin cfg1.N) :
    (dat1 (F := Ideal) V c).flushed 3 t
      = ((cfg1.win 3).blk t).view.read (Elt Ideal) (Cert.Biaffine.pairAdd (V c main_v9_0) (V c main_v9_1) (V c main_v8)) := by
  show (cfg1.win 3).cut (grid1.coords t) ((dat1 V c).after 3 t) = _
  rw [after1_3]
  unfold out1_3
  rw [View.canon_unit_zero hz4]
  simp only [View.ld_unit_zero (S := S1x32x2) hz3, View.ld_unit_zero (S := S1x1024x2) hz3, View.ld_unit_zero (S := S1x2) hz2]
  funext j
  show k1_pay1 (F := Ideal) (iblk1 V c 0 t) (iblk1 V c 1 t) (iblk1 V c 2 t) j
    = Cert.Biaffine.pairAdd (V c main_v9_0) (V c main_v9_1) (V c main_v8) (((cfg1.win 3).blk t).view.emb j)
  obtain ⟨u, r, q, k, rfl⟩ : ∃ (u : Fin 1) (r : Fin 32) (q : Fin 1024) (k : Fin 2), j = ix4 u r q k :=
    ⟨_, _, _, _, eq_ix4 j⟩
  obtain rfl : u = 0 := Fin.ext (by omega)
  refine (pay_apply _ _ _ r q k).trans ?_
  obtain ⟨-, -, -, -, -, -, -, -, e0, e1, e2, e3⟩ := idx_facts t
  unfold Cert.Biaffine.pairAdd
  have c0 : ((((cfg1.win 3).blk t).view.emb (ix4 (0 : Fin 1) r q k)) 0).val = win1_3.index t (0 : Fin 4) * 1 + 1 * (0 : Fin 1).val := rfl
  have c1 : ((((cfg1.win 3).blk t).view.emb (ix4 (0 : Fin 1) r q k)) 1).val = win1_3.index t (1 : Fin 4) * 32 + 1 * r.val := rfl
  have c2 : ((((cfg1.win 3).blk t).view.emb (ix4 (0 : Fin 1) r q k)) 2).val = win1_3.index t (2 : Fin 4) * 1024 + 1 * q.val := rfl
  have c3 : ((((cfg1.win 3).blk t).view.emb (ix4 (0 : Fin 1) r q k)) 3).val = win1_3.index t (3 : Fin 4) * 2 + 1 * k.val := rfl
  have h0 : ((((cfg1.win 3).blk t).view.emb (ix4 (0 : Fin 1) r q k)) 0).val = t.val / 32 := by rw [c0]; omega
  have h1 : ((((cfg1.win 3).blk t).view.emb (ix4 (0 : Fin 1) r q k)) 1).val = (t.val % 32) * 32 + r.val := by rw [c1]; omega
  have h2 : ((((cfg1.win 3).blk t).view.emb (ix4 (0 : Fin 1) r q k)) 2).val = q.val := by rw [c2]; omega
  have h3 : ((((cfg1.win 3).blk t).view.emb (ix4 (0 : Fin 1) r q k)) 3).val = k.val := by rw [c3]; omega
  exact congrArg₂ (· + ·)
    (congrArg₂ (· + ·) (iblk0_apply V c t 0 r k _ _ _ h0 h1 h3) (iblk1_apply V c t 0 q k _ _ _ h0 h2 h3))
    (iblk2_apply V c t 0 k (0 : Fin 1) _ h3)

/-- An index of the result array is in point t's block iff each coordinate is in the block's range on its axis. -/
theorem mem_blk (t : Fin cfg1.N) (i : S16x1024x1024x2.Idx) :
    i ∈ ((cfg1.win 3).blk t).view.set
      ↔ ∀ a : Fin 4, win1_3.index t a * S1x32x1024x2.size a ≤ (i a).val
          ∧ (i a).val < win1_3.index t a * S1x32x1024x2.size a + S1x32x1024x2.size a := by
  show i ∈ ((View.whole main_v10).slice (win1_3.rect t)).set ↔ _
  rw [View.set_slice_whole, Rect.mem_set_unit]
  exact Iff.rfl

/-- Every entry (n, p, q, k) of the result is in the block of point n·32 + p / 32, which writes back. -/
theorem cover (i : S16x1024x1024x2.Idx) :
    ∃ t : Fin cfg1.N, (cfg1.win 3).flush t = true ∧ i ∈ ((cfg1.win 3).blk t).view.set := by
  have b0 : (i 0).val < 16 := (i 0).isLt
  have b1 : (i 1).val < 1024 := (i 1).isLt
  have b2 : (i 2).val < 1024 := (i 2).isLt
  have b3 : (i 3).val < 2 := (i 3).isLt
  have hN : cfg1.N = 512 := N_1
  let t : Fin cfg1.N := ⟨(i 0).val * 32 + (i 1).val / 32, by rw [hN]; omega⟩
  have tv : t.val = (i 0).val * 32 + (i 1).val / 32 := rfl
  refine ⟨t, flush1_3 t, ?_⟩
  rw [mem_blk]
  obtain ⟨-, -, -, -, -, -, -, -, e0, e1, e2, e3⟩ := idx_facts t
  intro a
  match a with
  | ⟨0, _⟩ =>
    show win1_3.index t (0 : Fin 4) * 1 ≤ (i 0).val ∧ (i 0).val < win1_3.index t (0 : Fin 4) * 1 + 1
    rw [e0, tv]; omega
  | ⟨1, _⟩ =>
    show win1_3.index t (1 : Fin 4) * 32 ≤ (i 1).val ∧ (i 1).val < win1_3.index t (1 : Fin 4) * 32 + 32
    rw [e1, tv]; omega
  | ⟨2, _⟩ =>
    show win1_3.index t (2 : Fin 4) * 1024 ≤ (i 2).val ∧ (i 2).val < win1_3.index t (2 : Fin 4) * 1024 + 1024
    rw [e2]; omega
  | ⟨3, _⟩ =>
    show win1_3.index t (3 : Fin 4) * 2 ≤ (i 3).val ∧ (i 3).val < win1_3.index t (3 : Fin 4) * 2 + 2
    rw [e3]; omega

end Region

/-- The result array after the region: the pairwise sum of the two score arrays and the class bias, entry by entry. -/
theorem final (V : (c : Dev nD) → (b : Ref sig .tc) → Buf (Elt Ideal) ((c : Thread nD τ).loc b)) (c : Dev nD) :
    (dat1 (F := Ideal) V c).arrAt 3 cfg1.N = Cert.Biaffine.pairAdd (V c main_v9_0) (V c main_v9_1) (V c main_v8) :=
  (dat1 (F := Ideal) V c).arrAt_eq_of_cover 3 (Cert.Biaffine.pairAdd (V c main_v9_0) (V c main_v9_1) (V c main_v8))
    (fun t _ => flushed_eq V c t) cover

end Cert.KernelIdeal.PairValue

end
-- ==== Proof.KernelValue.lean ====
/-
  The idealized kernel's result as a function of its seven arguments.

  The result buffer is what the second region's write-backs leave: the pairwise sum of the two score arrays the first
  region left and the class bias row.  Each score array is the score function of the operands the first region found:
  the hidden state, and a branch's weights, bias row and classifier rows as the host stretch staged them.  Reading
  those operands back to the arguments gives the specification's `result`.
-/
import proofs.«120439_j13692355739775_2_alg».proof.Proof.KernelRun
import proofs.«120439_j13692355739775_2_alg».proof.Proof.HostReads
import proofs.«120439_j13692355739775_2_alg».proof.Proof.Score
import proofs.«120439_j13692355739775_2_alg».proof.Proof.PairValue

noncomputable section

namespace Cert.KernelIdeal.RunValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The first branch's score array as the second region finds it. -/
theorem dep_eq (c : Dev nD) :
    (V2 m ρ c main_v9_0 : S16x1024x2.Idx → EReal)
      = Cert.Biaffine.scores (m ((c : Thread nD τ).loc main_arg0)) (m ((c : Thread nD τ).loc main_arg1))
          (Cert.Biaffine.rowOf (m ((c : Thread nD τ).loc main_arg2))) (Cert.Biaffine.rowsFrom 0 (by omega) (m ((c : Thread nD τ).loc main_arg5))) := by
  refine ((W2_arr m ρ c 7).trans (Cert.KernelIdeal.ScoreValue.final_dep (V1 m ρ) c)).trans ?_
  show Cert.Biaffine.scores (W1 m ρ c (Proc.devRef .tc main_arg0)) (W1 m ρ c (Proc.devRef .tc main_v2))
      (W1 m ρ c (Proc.devRef .tc main_v6)) (W1 m ρ c (Proc.devRef .tc main_v4)) = _
  rw [Cert.KernelIdeal.HostReads.arg0, Cert.KernelIdeal.HostReads.wDep, Cert.KernelIdeal.HostReads.bDep,
    Cert.KernelIdeal.HostReads.wcDep]

/-- The second branch's. -/
theorem head_eq (c : Dev nD) :
    (V2 m ρ c main_v9_1 : S16x1024x2.Idx → EReal)
      = Cert.Biaffine.scores (m ((c : Thread nD τ).loc main_arg0)) (m ((c : Thread nD τ).loc main_arg3))
          (Cert.Biaffine.rowOf (m ((c : Thread nD τ).loc main_arg4))) (Cert.Biaffine.rowsFrom 500 (by omega) (m ((c : Thread nD τ).loc main_arg5))) := by
  refine ((W2_arr m ρ c 8).trans (Cert.KernelIdeal.ScoreValue.final_head (V1 m ρ) c)).trans ?_
  show Cert.Biaffine.scores (W1 m ρ c (Proc.devRef .tc main_arg0)) (W1 m ρ c (Proc.devRef .tc main_v3))
      (W1 m ρ c (Proc.devRef .tc main_v7)) (W1 m ρ c (Proc.devRef .tc main_v5)) = _
  rw [Cert.KernelIdeal.HostReads.arg0, Cert.KernelIdeal.HostReads.wHead, Cert.KernelIdeal.HostReads.bHead,
    Cert.KernelIdeal.HostReads.wcHead]

/-- The class bias row: the first region does not touch it. -/
theorem cls_eq (c : Dev nD) :
    (V2 m ρ c main_v8 : S1x2.Idx → EReal) = Cert.Biaffine.rowOf (m ((c : Thread nD τ).loc main_arg6)) :=
  (W2_of_ne m ρ c main_v8 (by decide)).trans (Cert.KernelIdeal.HostReads.bCls m ρ c)

/-- The result buffer at the end of the run. -/
theorem result_eq (c : Dev nD) :
    (W3 m ρ c (Proc.devRef .tc main_v10) : S16x1024x1024x2.Idx → EReal)
      = Cert.Biaffine.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine ((W3_arr m ρ c 3).trans (Cert.KernelIdeal.PairValue.final (V2 m ρ) c)).trans ?_
  rw [dep_eq m ρ c, head_eq m ρ c, cls_eq m ρ c]
  rfl

/-- Every weakly fair execution of the idealized kernel terminates with the result buffer at the specification's
    function of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v10)
          = Cert.Biaffine.result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_out m ρ)

end Cert.KernelIdeal.RunValue

end
-- ==== Proof.RefRun.lean ====
/-
  The reference's program as one straight line of host operations, and its run.

  The reference is a pure host program: @main's own operations, with the two calls of the LeakyReLU function (which itself
  calls the three-way select function) replaced by the callee's operations at the call site, over the buffers that call
  names.  A call means its callee's body on the operands, so the program is that list in order; every weakly fair
  execution then ends with each buffer at the fold of the operations' results over the contents at launch.
-/
import proofs.«120439_j13692355739775_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The reference's thirty-six operations in order.  A branch is twelve: the product of the hidden state with the branch's
    weights, the bias broadcast twice (to a row, then to every position) and added, the slope constant, and LeakyReLU's
    seven — the zero constant, its broadcast, the comparison with it, the slope converted to its own type (the identity),
    the slope's broadcast, the product with the slope, and the select between the value and that product.  Then the two
    halves of the classifier matrix, each a slice followed by the product with its branch's activations; each score array
    broadcast twice to pair every dependent position with every head position; their sum; the class bias broadcast twice;
    the final sum. -/
abbrev ops : List (HloOp τ sig (Elt F)) :=
  [ binary main_arg0 main_arg1 main_v0 ((fun l r => Host.dotGeneral dot_S16x1024x1024_S1024x500_S16x1024x500_2_0_01_1_n_n none l r) : (⟨S16x1024x1024, .f32⟩ : BufTy).Contents (Elt F) → (⟨S1024x500, .f32⟩ : BufTy).Contents (Elt F) → (⟨S16x1024x500, .f32⟩ : BufTy).Contents (Elt F)),
    unary main_arg2 main_v1 (broadcastInDim S1x1x500 ![2] bcast_S500_S1x1x500_2 : (⟨S500, .f32⟩ : BufTy).Contents (Elt F) → (⟨S1x1x500, .f32⟩ : BufTy).Contents (Elt F)),
    unary main_v1 main_v2 (broadcastInDim S16x1024x500 ![0, 1, 2] bcast_S1x1x500_S16x1024x500_0_1_2 : (⟨S1x1x500, .f32⟩ : BufTy).Contents (Elt F) → (⟨S16x1024x500, .f32⟩ : BufTy).Contents (Elt F)),
    binary main_v0 main_v2 main_v3 (addf : (⟨S16x1024x500, .f32⟩ : BufTy).Contents (Elt F) → (⟨S16x1024x500, .f32⟩ : BufTy).Contents (Elt F) → (⟨S16x1024x500, .f32⟩ : BufTy).Contents (Elt F)),
    nullary main_cst (constant S_ .f32 0x3C23D70A#32),
    TRef.nullary main_call0.cst (constant S_ .f32 0x00000000#32),
    TRef.unary main_call0.cst main_call0.v0 (broadcastInDim S16x1024x500 ![] bcast_S_S16x1024x500),
    TRef.binary (.of main_v3) main_call0.v0 main_call0.v1 (cmpf .oge),
    TRef.unary (.of main_cst) main_call0.v2 id,
    TRef.unary main_call0.v2 main_call0.v3 (broadcastInDim S16x1024x500 ![] bcast_S_S16x1024x500),
    TRef.binary main_call0.v3 (.of main_v3) main_call0.v4 mulf,
    TRef.ternary main_call0.v1 (.of main_v3) main_call0.v4 main_call0.call0.v0 select,
    binary main_arg0 main_arg3 main_v5 ((fun l r => Host.dotGeneral dot_S16x1024x1024_S1024x500_S16x1024x500_2_0_01_1_n_n none l r) : (⟨S16x1024x1024, .f32⟩ : BufTy).Contents (Elt F) → (⟨S1024x500, .f32⟩ : BufTy).Contents (Elt F) → (⟨S16x1024x500, .f32⟩ : BufTy).Contents (Elt F)),
    unary main_arg4 main_v6 (broadcastInDim S1x1x500 ![2] bcast_S500_S1x1x500_2 : (⟨S500, .f32⟩ : BufTy).Contents (Elt F) → (⟨S1x1x500, .f32⟩ : BufTy).Contents (Elt F)),
    unary main_v6 main_v7 (broadcastInDim S16x1024x500 ![0, 1, 2] bcast_S1x1x500_S16x1024x500_0_1_2 : (⟨S1x1x500, .f32⟩ : BufTy).Contents (Elt F) → (⟨S16x1024x500, .f32⟩ : BufTy).Contents (Elt F)),
    binary main_v5 main_v7 main_v8 (addf : (⟨S16x1024x500, .f32⟩ : BufTy).Contents (Elt F) → (⟨S16x1024x500, .f32⟩ : BufTy).Contents (Elt F) → (⟨S16x1024x500, .f32⟩ : BufTy).Contents (Elt F)),
    nullary main_cst_0 (constant S_ .f32 0x3C23D70A#32),
    TRef.nullary main_call1.cst (constant S_ .f32 0x00000000#32),
    TRef.unary main_call1.cst main_call1.v0 (broadcastInDim S16x1024x500 ![] bcast_S_S16x1024x500),
    TRef.binary (.of main_v8) main_call1.v0 main_call1.v1 (cmpf .oge),
    TRef.unary (.of main_cst_0) main_call1.v2 id,
    TRef.unary main_call1.v2 main_call1.v3 (broadcastInDim S16x1024x500 ![] bcast_S_S16x1024x500),
    TRef.binary main_call1.v3 (.of main_v8) main_call1.v4 mulf,
    TRef.ternary main_call1.v1 (.of main_v8) main_call1.v4 main_call1.call0.v0 select,
    unary main_arg5 main_v10 ((extractStridedSlice S500x2 ![0, 0] · slices_S1000x2_S500x2_0_0) : (⟨S1000x2, .f32⟩ : BufTy).Contents (Elt F) → (⟨S500x2, .f32⟩ : BufTy).Contents (Elt F)),
    binary main_v4 main_v10 main_v11 ((fun l r => Host.dotGeneral dot_S16x1024x500_S500x2_S16x1024x2_2_0_01_1_n_n none l r) : (⟨S16x1024x500, .f32⟩ : BufTy).Contents (Elt F) → (⟨S500x2, .f32⟩ : BufTy).Contents (Elt F) → (⟨S16x1024x2, .f32⟩ : BufTy).Contents (Elt F)),
    unary main_arg5 main_v12 ((extractStridedSlice S500x2 ![500, 0] · slices_S1000x2_S500x2_500_0) : (⟨S1000x2, .f32⟩ : BufTy).Contents (Elt F) → (⟨S500x2, .f32⟩ : BufTy).Contents (Elt F)),
    binary main_v9 main_v12 main_v13 ((fun l r => Host.dotGeneral dot_S16x1024x500_S500x2_S16x1024x2_2_0_01_1_n_n none l r) : (⟨S16x1024x500, .f32⟩ : BufTy).Contents (Elt F) → (⟨S500x2, .f32⟩ : BufTy).Contents (Elt F) → (⟨S16x1024x2, .f32⟩ : BufTy).Contents (Elt F)),
    unary main_v11 main_v14 (broadcastInDim S16x1024x1x2 ![0, 1, 3] bcast_S16x1024x2_S16x1024x1x2_0_1_3 : (⟨S16x1024x2, .f32⟩ : BufTy).Contents (Elt F) → (⟨S16x1024x1x2, .f32⟩ : BufTy).Contents (Elt F)),
    unary main_v13 main_v15 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    unary main_v14 main_v16 (broadcastInDim S16x1024x1024x2 ![0, 1, 2, 3] bcast_S16x1024x1x2_S16x1024x1024x2_0_1_2_3 : (⟨S16x1024x1x2, .f32⟩ : BufTy).Contents (Elt F) → (⟨S16x1024x1024x2, .f32⟩ : BufTy).Contents (Elt F)),
    unary main_v15 main_v17 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    binary main_v16 main_v17 main_v18 (addf : (⟨S16x1024x1024x2, .f32⟩ : BufTy).Contents (Elt F) → (⟨S16x1024x1024x2, .f32⟩ : BufTy).Contents (Elt F) → (⟨S16x1024x1024x2, .f32⟩ : BufTy).Contents (Elt F)),
    unary main_arg6 main_v19 (broadcastInDim S1x1x1x2 ![3] bcast_S2_S1x1x1x2_3 : (⟨S2, .f32⟩ : BufTy).Contents (Elt F) → (⟨S1x1x1x2, .f32⟩ : BufTy).Contents (Elt F)),
    unary main_v19 main_v20 (broadcastInDim S16x1024x1024x2 ![0, 1, 2, 3] bcast_S1x1x1x2_S16x1024x1024x2_0_1_2_3 : (⟨S1x1x1x2, .f32⟩ : BufTy).Contents (Elt F) → (⟨S16x1024x1024x2, .f32⟩ : BufTy).Contents (Elt F)),
    binary main_v18 main_v20 main_v21 (addf : (⟨S16x1024x1024x2, .f32⟩ : BufTy).Contents (Elt F) → (⟨S16x1024x1024x2, .f32⟩ : BufTy).Contents (Elt F) → (⟨S16x1024x1024x2, .f32⟩ : BufTy).Contents (Elt F)) ]

-- thirty-six binds re-associated: the rewrite under the chain recurses once per statement
set_option maxRecDepth 2048 in
/-- @main is that straight line: with the two functions' definitions unfolded at their calls and the calls' records at
    their fields, both sides are one chain of host steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    unary_bufs_sub .., binary_bufs_sub .., unary_bufs_sub .., binary_bufs_sub ..,
    unary_bufs_sub .., unary_bufs_sub .., unary_bufs_sub .., unary_bufs_sub .., binary_bufs_sub ..,
    unary_bufs_sub .., unary_bufs_sub .., binary_bufs_sub ..⟩

/-- At the compiled mesh, for any float values, from any memory with zero counters: every weakly fair execution of @main
    on the TensorCores terminates, and every final state has each TensorCore buffer at the operations' fold over the
    contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibStackDot.lean ====
/-
  A host product of a stack of matrices by one matrix, read at an entry, at the ideal values.

  The host's `dot_general` of an operand [a, b, c] by an operand [c, e], contracting the first operand's last axis against
  the second operand's first axis with no batch axis (einsum "abc,ce->abe"), is at the entry (n, p, u) the sum over the
  contracted coordinate d of A (n, p, d) · B (d, u): the same sum a matrix product of row (n, p) has, whatever a, b, c, e
  and the operands' float formats.  The sum is only re-indexed, so nothing need be finite.
-/
import Idealize.ShloMosaic.Lib.ValueIdx
import Idealize.ShloMosaic.Lib.Pipeline.Value
import Idealize.ShloMosaic.PureOps.Ideal.Laws

noncomputable section

namespace Cert.Lib.StackDot

open Idealize.ShloMosaic Idealize.ShloMosaic.ValueIdx

/-- A stack of matrices [a, b, c] times a matrix [c, e], contracting the stack's last axis against the matrix's first: the
    entry (n, p, u) is the sum over the contracted coordinate d of A (n, p, d) · B (d, u).  Only re-indexing of the sum. -/
theorem dot_rows_apply {a b c e : ℕ} {φ₁ φ₂ : FTy}
    (w : DotDims.WF ⟨3, ![a, b, c]⟩ ⟨2, ![c, e]⟩ ⟨3, ![a, b, e]⟩ [2] [0] [0, 1] [1] [] [])
    (prec : Option ContractPrecision) (A : FVec Ideal ⟨3, ![a, b, c]⟩ φ₁) (B : FVec Ideal ⟨2, ![c, e]⟩ φ₂)
    (n : Fin a) (p : Fin b) (u : Fin e) :
    Host.dotGeneral (⟨[2], [0], [0, 1], [1], [], [], w⟩ : DotDims _ _ _) prec A B (ix3 n p u)
      = ∑ d : Fin c, A (ix3 n p d) * B (ix2 d u) := by
  show FloatOps.dotGeneral _ prec _ A B (ix3 n p u) = _
  rw [Ideal.dotGeneral_apply,
    ← Equiv.sum_comp (contrEquiv1 (⟨[2], [0], [0, 1], [1], [], [], w⟩ : DotDims _ _ _) c rfl rfl).symm]
  refine Finset.sum_congr rfl fun d _ => ?_
  have c1 := contrEquiv1_symm_val
    (⟨[2], [0], [0, 1], [1], [], [], w⟩ : DotDims ⟨3, ![a, b, c]⟩ ⟨2, ![c, e]⟩ ⟨3, ![a, b, e]⟩) c rfl rfl d
  have l : (⟨[2], [0], [0, 1], [1], [], [], w⟩ : DotDims ⟨3, ![a, b, c]⟩ ⟨2, ![c, e]⟩ ⟨3, ![a, b, e]⟩).lhsIdx (ix3 n p u)
      ((contrEquiv1 _ c rfl rfl).symm d) = ix3 n p d := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c1
  have r : (⟨[2], [0], [0, 1], [1], [], [], w⟩ : DotDims ⟨3, ![a, b, c]⟩ ⟨2, ![c, e]⟩ ⟨3, ![a, b, e]⟩).rhsIdx (ix3 n p u)
      ((contrEquiv1 _ c rfl rfl).symm d) = ix2 d u := by
    funext ax; apply Fin.ext
    match ax with
    | ⟨0, _⟩ => simp [DotDims.rhsIdx]; exact c1
    | ⟨1, _⟩ => simp [DotDims.rhsIdx]; rfl
  rw [l, r]

end Cert.Lib.StackDot

end
-- ==== Proof.RefValue.lean ====
/-
  The reference's value: every weakly fair execution of the reference ends with the result buffer holding the
  specification's function of the seven arguments, and the arguments unchanged.

  The run leaves each buffer at the fold of the thirty-six operations' results.  At the result buffer that fold is the
  operations' composed term of the seven arguments; the term is read entry by entry — the pairwise sums through their
  broadcasts, each branch's scores through its product with five hundred rows of the classifier matrix, LeakyReLU entry by
  entry, the hidden values through the product with the weights and the broadcast bias — down to the sums the
  specification writes.  Sums are only re-indexed, never redistributed, so no finiteness of the inputs is used.
-/
import proofs.«120439_j13692355739775_2_alg».proof.Proof.RefRun
import proofs.«120439_j13692355739775_2_alg».proof.Proof.Spec
import proofs.«120439_j13692355739775_2_alg».proof.Proof.LibStackDot
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Idealize.SL.Sem Cert.ReferenceIdeal Cert.ReferenceIdeal.Gen
  Idealize.ShloMosaic.TcCoe Idealize.ShloMosaic.StableHlo

/-- The branch's first product at an entry. -/
theorem dot_hidden_apply (A : FVec Ideal S16x1024x1024 .f32) (B : FVec Ideal S1024x500 .f32) (n : Fin 16) (p : Fin 1024) (u : Fin 500) :
    Host.dotGeneral dot_S16x1024x1024_S1024x500_S16x1024x500_2_0_01_1_n_n none A B (ix3 n p u)
      = ∑ d : Fin 1024, A (ix3 n p d) * B (ix2 d u) :=
  Cert.Lib.StackDot.dot_rows_apply _ none A B n p u

/-- The branch's second product at an entry. -/
theorem dot_score_apply (A : FVec Ideal S16x1024x500 .f32) (B : FVec Ideal S500x2 .f32) (n : Fin 16) (p : Fin 1024) (k : Fin 2) :
    Host.dotGeneral dot_S16x1024x500_S500x2_S16x1024x2_2_0_01_1_n_n none A B (ix3 n p k)
      = ∑ u : Fin 500, A (ix3 n p u) * B (ix2 u k) :=
  Cert.Lib.StackDot.dot_rows_apply _ none A B n p k

/-- The bias [500] broadcast to a row [1, 1, 500] and then to every position [16, 1024, 500] reads the bias at the hidden
    unit: the two leading coordinates come from unit axes. -/
theorem bias_apply {α : Type} (h1 : S500.BroadcastsInDim S1x1x500 (![2] : Fin 1 → Fin S1x1x500.rank))
    (h2 : S1x1x500.BroadcastsInDim S16x1024x500 (![0, 1, 2] : Fin 3 → Fin S16x1024x500.rank))
    (b : S500.Idx → α) (n : Fin 16) (p : Fin 1024) (u : Fin 500) :
    broadcastInDim S16x1024x500 ![0, 1, 2] h2 (broadcastInDim S1x1x500 ![2] h1 b) (ix3 n p u) = b (ix1 u) := by
  refine (broadcastInDim_apply _ h2 _ (ix3 n p u) (ix3 (0 : Fin 1) (0 : Fin 1) u) fun a => ?_).trans ?_
  · match a with
    | ⟨0, _⟩ => rfl
    | ⟨1, _⟩ => rfl
    | ⟨2, _⟩ => rfl
  · refine broadcastInDim_apply _ h1 b _ (ix1 u) fun a => ?_
    match a with
    | ⟨0, _⟩ => rfl

/-- The dependent branch's scores [16, 1024, 2] given a unit axis in the head's place and broadcast along it: entry
    (n, p, q, k) reads the score of position p, whatever q. -/
theorem pair_dep_apply {α : Type} (h1 : S16x1024x2.BroadcastsInDim S16x1024x1x2 (![0, 1, 3] : Fin 3 → Fin S16x1024x1x2.rank))
    (h2 : S16x1024x1x2.BroadcastsInDim S16x1024x1024x2 (![0, 1, 2, 3] : Fin 4 → Fin S16x1024x1024x2.rank))
    (D : S16x1024x2.Idx → α) (n : Fin 16) (p q : Fin 1024) (k : Fin 2) :
    broadcastInDim S16x1024x1024x2 ![0, 1, 2, 3] h2 (broadcastInDim S16x1024x1x2 ![0, 1, 3] h1 D) (ix4 n p q k) = D (ix3 n p k) := by
  refine (broadcastInDim_apply _ h2 _ (ix4 n p q k) (ix4 n p (0 : Fin 1) k) fun a => ?_).trans ?_
  · match a with
    | ⟨0, _⟩ => rfl
    | ⟨1, _⟩ => rfl
    | ⟨2, _⟩ => rfl
    | ⟨3, _⟩ => rfl
  · refine broadcastInDim_apply _ h1 D _ (ix3 n p k) fun a => ?_
    match a with
    | ⟨0, _⟩ => rfl
    | ⟨1, _⟩ => rfl
    | ⟨2, _⟩ => rfl

/-- The head branch's scores [16, 1024, 2] given a unit axis in the dependent's place and broadcast along it: entry
    (n, p, q, k) reads the score of position q, whatever p. -/
theorem pair_head_apply {α : Type} (h1 : S16x1024x2.BroadcastsInDim S16x1x1024x2 (![0, 2, 3] : Fin 3 → Fin S16x1x1024x2.rank))
    (h2 : S16x1x1024x2.BroadcastsInDim S16x1024x1024x2 (![0, 1, 2, 3] : Fin 4 → Fin S16x1024x1024x2.rank))
    (H : S16x1024x2.Idx → α) (n : Fin 16) (p q : Fin 1024) (k : Fin 2) :
    broadcastInDim S16x1024x1024x2 ![0, 1, 2, 3] h2 (broadcastInDim S16x1x1024x2 ![0, 2, 3] h1 H) (ix4 n p q k) = H (ix3 n q k) := by
  refine (broadcastInDim_apply _ h2 _ (ix4 n p q k) (ix4 n (0 : Fin 1) q k) fun a => ?_).trans ?_
  · match a with
    | ⟨0, _⟩ => rfl
    | ⟨1, _⟩ => rfl
    | ⟨2, _⟩ => rfl
    | ⟨3, _⟩ => rfl
  · refine broadcastInDim_apply _ h1 H _ (ix3 n q k) fun a => ?_
    match a with
    | ⟨0, _⟩ => rfl
    | ⟨1, _⟩ => rfl
    | ⟨2, _⟩ => rfl

/-- The class bias [2] broadcast to [1, 1, 1, 2] and then to every pair reads the bias at the class. -/
theorem class_bias_apply {α : Type} (h1 : S2.BroadcastsInDim S1x1x1x2 (![3] : Fin 1 → Fin S1x1x1x2.rank))
    (h2 : S1x1x1x2.BroadcastsInDim S16x1024x1024x2 (![0, 1, 2, 3] : Fin 4 → Fin S16x1024x1024x2.rank))
    (b : S2.Idx → α) (n : Fin 16) (p q : Fin 1024) (k : Fin 2) :
    broadcastInDim S16x1024x1024x2 ![0, 1, 2, 3] h2 (broadcastInDim S1x1x1x2 ![3] h1 b) (ix4 n p q k) = b (ix1 k) := by
  refine (broadcastInDim_apply _ h2 _ (ix4 n p q k) (ix4 (0 : Fin 1) (0 : Fin 1) (0 : Fin 1) k) fun a => ?_).trans ?_
  · match a with
    | ⟨0, _⟩ => rfl
    | ⟨1, _⟩ => rfl
    | ⟨2, _⟩ => rfl
    | ⟨3, _⟩ => rfl
  · refine broadcastInDim_apply _ h1 b _ (ix1 k) fun a => ?_
    match a with
    | ⟨0, _⟩ => rfl

/-- Five hundred rows of the classifier matrix starting at row `off`: entry (u, k) of the slice is entry (off + u, k). -/
theorem rows_apply {α : Type} (off : ℕ) (hoff : off + 500 ≤ 1000) (hs : S1000x2.Slices ![off, 0] S500x2)
    (Wc : S1000x2.Idx → α) (u : Fin 500) (k : Fin 2) :
    extractStridedSlice S500x2 ![off, 0] Wc hs (ix2 u k) = Wc (ix2 (⟨off + u.val, by have := u.isLt; omega⟩ : Fin 1000) k) := by
  refine extractStridedSlice_apply _ Wc hs (ix2 u k) _ fun a => ?_
  match a with
  | ⟨0, _⟩ => rfl
  | ⟨1, _⟩ => exact (Nat.zero_add _).symm

/-- LeakyReLU as the program spells it — compare with the broadcast zero, multiply by the broadcast slope, select — is,
    entry by entry, the scalar function. -/
theorem act_apply (hb : S_.BroadcastsInDim S16x1024x500 (![] : Fin 0 → Fin S16x1024x500.rank))
    (h : FVec Ideal S16x1024x500 .f32) (i : S16x1024x500.Idx) :
    select (cmpf .oge h (broadcastInDim S16x1024x500 ![] hb (constant (F := Ideal) S_ .f32 0x00000000#32)))
        h (mulf (broadcastInDim S16x1024x500 ![] hb (id (constant (F := Ideal) S_ .f32 0x3C23D70A#32))) h) i
      = Cert.Biaffine.leaky (h i) := rfl

/-- A branch's hidden values before the activation [16, 1024, 500]: the hidden state times the branch's weights, plus the
    bias broadcast to every position. -/
def pre (X : FVec Ideal S16x1024x1024 .f32) (W : FVec Ideal S1024x500 .f32) (b : FVec Ideal S500 .f32) :
    FVec Ideal S16x1024x500 .f32 :=
  addf (Host.dotGeneral dot_S16x1024x1024_S1024x500_S16x1024x500_2_0_01_1_n_n none X W)
    (broadcastInDim S16x1024x500 ![0, 1, 2] bcast_S1x1x500_S16x1024x500_0_1_2 (broadcastInDim S1x1x500 ![2] bcast_S500_S1x1x500_2 b))

/-- LeakyReLU of an array [16, 1024, 500], as the program spells it. -/
def act (h : FVec Ideal S16x1024x500 .f32) : FVec Ideal S16x1024x500 .f32 :=
  select (cmpf .oge h (broadcastInDim S16x1024x500 ![] bcast_S_S16x1024x500 (constant (F := Ideal) S_ .f32 0x00000000#32)))
    h (mulf (broadcastInDim S16x1024x500 ![] bcast_S_S16x1024x500 (id (constant (F := Ideal) S_ .f32 0x3C23D70A#32))) h)

/-- A branch's scores [16, 1024, 2]: its activations times its five hundred rows of the classifier matrix. -/
def branch (X : FVec Ideal S16x1024x1024 .f32) (W : FVec Ideal S1024x500 .f32) (b : FVec Ideal S500 .f32)
    (off : ℕ) (hs : S1000x2.Slices ![off, 0] S500x2) (Wc : FVec Ideal S1000x2 .f32) : FVec Ideal S16x1024x2 .f32 :=
  Host.dotGeneral dot_S16x1024x500_S500x2_S16x1024x2_2_0_01_1_n_n none (act (pre X W b)) (extractStridedSlice S500x2 ![off, 0] Wc hs)

/-- The operations' composed term of the seven arguments. -/
def composed (X : FVec Ideal S16x1024x1024 .f32) (Wd : FVec Ideal S1024x500 .f32) (bd : FVec Ideal S500 .f32)
    (Wh : FVec Ideal S1024x500 .f32) (bh : FVec Ideal S500 .f32) (Wc : FVec Ideal S1000x2 .f32) (bc : FVec Ideal S2 .f32) :
    FVec Ideal S16x1024x1024x2 .f32 :=
  addf
    (addf
      (broadcastInDim S16x1024x1024x2 ![0, 1, 2, 3] bcast_S16x1024x1x2_S16x1024x1024x2_0_1_2_3
        (broadcastInDim S16x1024x1x2 ![0, 1, 3] bcast_S16x1024x2_S16x1024x1x2_0_1_3 (branch X Wd bd 0 slices_S1000x2_S500x2_0_0 Wc)))
      (broadcastInDim S16x1024x1024x2 ![0, 1, 2, 3] bcast_S16x1x1024x2_S16x1024x1024x2_0_1_2_3
        (broadcastInDim S16x1x1024x2 ![0, 2, 3] bcast_S16x1024x2_S16x1x1024x2_0_2_3 (branch X Wh bh 500 slices_S1000x2_S500x2_500_0 Wc))))
    (broadcastInDim S16x1024x1024x2 ![0, 1, 2, 3] bcast_S1x1x1x2_S16x1024x1024x2_0_1_2_3
      (broadcastInDim S1x1x1x2 ![3] bcast_S2_S1x1x1x2_3 bc))

/-- A branch's hidden value at (n, p, u): row (n, p) of the hidden state against column u of the weights, plus the bias at u. -/
theorem pre_apply (X : FVec Ideal S16x1024x1024 .f32) (W : FVec Ideal S1024x500 .f32) (b : FVec Ideal S500 .f32)
    (n : Fin 16) (p : Fin 1024) (u : Fin 500) :
    pre X W b (ix3 n p u) = (∑ d : Fin 1024, X (ix3 n p d) * W (ix2 d u)) + b (ix1 u) := by
  unfold pre
  rw [addf_apply, dot_hidden_apply, bias_apply]

/-- A branch's score at (n, p, k) is the specification's score of row (n, p). -/
theorem branch_apply (X : FVec Ideal S16x1024x1024 .f32) (W : FVec Ideal S1024x500 .f32) (b : FVec Ideal S500 .f32)
    (off : ℕ) (hoff : off + 500 ≤ 1000) (hs : S1000x2.Slices ![off, 0] S500x2) (Wc : FVec Ideal S1000x2 .f32)
    (n : Fin 16) (p : Fin 1024) (k : Fin 2) :
    branch X W b off hs Wc (ix3 n p k)
      = Cert.Biaffine.scoreOf (fun d => X (ix3 n p d)) W (Cert.Biaffine.rowOf b) (Cert.Biaffine.rowsFrom off hoff Wc) k := by
  unfold branch
  rw [dot_score_apply]
  refine Finset.sum_congr rfl fun u _ => ?_
  rw [rows_apply off hoff hs Wc u k]
  unfold act
  rw [act_apply, pre_apply]
  rfl

/-- The composed term is the specification's result, entry by entry. -/
theorem composed_eq (X : FVec Ideal S16x1024x1024 .f32) (Wd : FVec Ideal S1024x500 .f32) (bd : FVec Ideal S500 .f32)
    (Wh : FVec Ideal S1024x500 .f32) (bh : FVec Ideal S500 .f32) (Wc : FVec Ideal S1000x2 .f32) (bc : FVec Ideal S2 .f32) :
    composed X Wd bd Wh bh Wc bc = Cert.Biaffine.result X Wd bd Wh bh Wc bc := by
  funext i
  obtain ⟨n, p, q, k, rfl⟩ : ∃ (n : Fin 16) (p q : Fin 1024) (k : Fin 2), i = ix4 n p q k := ⟨i 0, i 1, i 2, i 3, eq_ix4 i⟩
  unfold composed
  rw [addf_apply, addf_apply, pair_dep_apply, pair_head_apply, class_bias_apply,
    branch_apply X Wd bd 0 (by omega), branch_apply X Wh bh 500 (by omega)]
  rfl

/-- The fold of the operations at the result buffer is the composed term of the seven arguments' contents: each
    operation's result read at the buffer it writes, any other buffer left as it was. -/
theorem after_result (V : Valuation τ sig (Elt Ideal)) :
    after RefRun.ops V (main_v21 : DevRef τ sig)
      = composed (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

theorem after_arg0 (V : Valuation τ sig (Elt Ideal)) :
    after RefRun.ops V (main_arg0 : DevRef τ sig) = V (main_arg0 : DevRef τ sig) := by after_results_simp
theorem after_arg1 (V : Valuation τ sig (Elt Ideal)) :
    after RefRun.ops V (main_arg1 : DevRef τ sig) = V (main_arg1 : DevRef τ sig) := by after_results_simp
theorem after_arg2 (V : Valuation τ sig (Elt Ideal)) :
    after RefRun.ops V (main_arg2 : DevRef τ sig) = V (main_arg2 : DevRef τ sig) := by after_results_simp
theorem after_arg3 (V : Valuation τ sig (Elt Ideal)) :
    after RefRun.ops V (main_arg3 : DevRef τ sig) = V (main_arg3 : DevRef τ sig) := by after_results_simp
theorem after_arg4 (V : Valuation τ sig (Elt Ideal)) :
    after RefRun.ops V (main_arg4 : DevRef τ sig) = V (main_arg4 : DevRef τ sig) := by after_results_simp
theorem after_arg5 (V : Valuation τ sig (Elt Ideal)) :
    after RefRun.ops V (main_arg5 : DevRef τ sig) = V (main_arg5 : DevRef τ sig) := by after_results_simp
theorem after_arg6 (V : Valuation τ sig (Elt Ideal)) :
    after RefRun.ops V (main_arg6 : DevRef τ sig) = V (main_arg6 : DevRef τ sig) := by after_results_simp

/-- At the ideal values, from any memory with zero counters: every weakly fair execution of the reference terminates with
    the result buffer at the specification's function of the seven arguments' contents at launch, and the seven
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = Cert.Biaffine.result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v21).trans ((after_result (launchContents m c)).trans (composed_eq _ _ _ _ _ _ _)),
        (h c main_arg0).trans (after_arg0 _), (h c main_arg1).trans (after_arg1 _), (h c main_arg2).trans (after_arg2 _),
        (h c main_arg3).trans (after_arg3 _), (h c main_arg4).trans (after_arg4 _), (h c main_arg5).trans (after_arg5 _),
        (h c main_arg6).trans (after_arg6 _)⟩)
    (RefRun.run_main m ρ)

end Cert.ReferenceIdeal.RefValue

end
-- ==== Proof.lean ====
/-
  Kernel against reference, on the extended reals.

  Both programs compute, for every batch member n, dependent position p, head position q and class k,
      out (n, p, q, k) = (dep (n, p, k) + head (n, q, k)) + bc k,
  where a branch's score at (n, l, k) is  ∑ u, LeakyReLU (∑ d, X (n, l, d) · W (d, u) + b u) · Wc (off + u, k)
  (off = 0 for the dependent branch, 500 for the head branch).  The kernel stages the weights in the matrix unit's
  format, which is the identity on the extended reals, computes the two score arrays one batch member at a time in a
  first pipelined region, and adds them pairwise in a second one; the reference does the same sums with whole-array
  host operations.  The two sides are the same sums with the same grouping, so no finiteness of the inputs is used.
  The frames of the two kernel programs are the generated ones; the reference's frame is its run with the result
  dropped; the ideal pass rewrote nothing, so the idealization claim is trivial.
-/
import proofs.«120439_j13692355739775_2_alg».proof.Defs
import proofs.«120439_j13692355739775_2_alg».proof.Proof.Gen.Kernel
import proofs.«120439_j13692355739775_2_alg».proof.Proof.Gen.Kernel.Frame
import proofs.«120439_j13692355739775_2_alg».proof.Proof.Gen.KernelIdeal
import proofs.«120439_j13692355739775_2_alg».proof.Proof.Gen.KernelIdeal.Frame
import proofs.«120439_j13692355739775_2_alg».proof.Proof.Gen.ReferenceIdeal
import proofs.«120439_j13692355739775_2_alg».proof.Proof.Gen.Pre_finite_inputs
import proofs.«120439_j13692355739775_2_alg».proof.Proof.Spec
import proofs.«120439_j13692355739775_2_alg».proof.Proof.KernelValue
import proofs.«120439_j13692355739775_2_alg».proof.Proof.RefValue

noncomputable section

namespace Cert.Proof

open Idealize.ShloMosaic Idealize.SL.Sem

/-- The word-level kernel terminates, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the result forgotten. -/
theorem frame_ri : Cert.frame_ReferenceIdeal := fun m ρ _ =>
  (θ_run Cert.ReferenceIdeal.defs _ _).mono (fun _ h c => (h c).2) (Cert.ReferenceIdeal.RefValue.run m ρ)

/-- Run from memories that agree on the seven arguments, the two idealized programs end with the same result: both
    result buffers hold the specification's function of the arguments. -/
theorem algebraic : Cert.algebraic_KernelIdeal_ReferenceIdeal := by
  intro m ρ m' ρ' _ hagree
  refine ⟨fun c => Cert.Biaffine.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
